-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v10_0)) (v2 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_v10_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x69x1 : Shape := ⟨3, ![524288, 69, 1]⟩
abbrev S138x69 : Shape := ⟨2, ![138, 69]⟩
abbrev S138 : Shape := ⟨1, ![138]⟩
abbrev S78x138 : Shape := ⟨2, ![78, 138]⟩
abbrev S156x78 : Shape := ⟨2, ![156, 78]⟩
abbrev S156 : Shape := ⟨1, ![156]⟩
abbrev S_ : Shape := ⟨0, ![]⟩

class Facts : Prop where
  bcast_S_S524288x69x1 : S_.BroadcastsInDim S524288x69x1 (![] : Fin 0 → Fin S524288x69x1.rank)
  reducesTo_S524288x69x1_S_d0_1_2 : S524288x69x1.ReducesTo [0, 1, 2] S_
  h_S_ : 0 < S_.numel
  bcast_S_S138x69 : S_.BroadcastsInDim S138x69 (![] : Fin 0 → Fin S138x69.rank)
  reducesTo_S138x69_S_d0_1 : S138x69.ReducesTo [0, 1] S_
  bcast_S_S138 : S_.BroadcastsInDim S138 (![] : Fin 0 → Fin S138.rank)
  reducesTo_S138_S_d0 : S138.ReducesTo [0] S_
  bcast_S_S78x138 : S_.BroadcastsInDim S78x138 (![] : Fin 0 → Fin S78x138.rank)
  reducesTo_S78x138_S_d0_1 : S78x138.ReducesTo [0, 1] S_
  bcast_S_S156x78 : S_.BroadcastsInDim S156x78 (![] : Fin 0 → Fin S156x78.rank)
  reducesTo_S156x78_S_d0_1 : S156x78.ReducesTo [0, 1] S_
  bcast_S_S156 : S_.BroadcastsInDim S156 (![] : Fin 0 → Fin S156.rank)
  reducesTo_S156_S_d0 : S156.ReducesTo [0] S_

variable [Facts]

def fn_part2 {F : FTy → Type} [FloatOps F] (main_arg7 : FVec F S156x78 .f32) (main_v33 : IVec S_ 1) : IVec S_ 1 :=
  let main_v34 : FVec F S156x78 .f32 := Host.absf main_arg7
  let main_cst_12 : FVec F S_ .f32 := constant S_ .f32 0x7F800000#32
  let main_v35 : FVec F S156x78 .f32 := broadcastInDim S156x78 ![] bcast_S_S156x78 main_cst_12
  let main_v36 : IVec S156x78 1 := cmpf .olt main_v34 main_v35
  let main_c_13 : IVec S_ 1 := constantI S_ 1 1#1
  let main_v37 : IVec S_ 1 := (fun x v => Host.reduce IntOp.andi x v reducesTo_S156x78_S_d0_1 h_S_) main_v36 main_c_13
  let main_v38 : IVec S_ 1 := andi main_v33 main_v37
  main_v38

def fn_part1 {F : FTy → Type} [FloatOps F] (main_arg4 : FVec F S78x138 .f32) (main_arg5 : FVec F S156x78 .f32) (main_arg6 : FVec F S156 .f32) (main_arg7 : FVec F S156x78 .f32) (main_v13 : IVec S_ 1) (main_v16 : IVec S138x69 1) : IVec S_ 1 :=
  let main_c_5 : IVec S_ 1 := constantI S_ 1 1#1
  let main_v17 : IVec S_ 1 := (fun x v => Host.reduce IntOp.andi x v reducesTo_S138x69_S_d0_1 h_S_) main_v16 main_c_5
  let main_v18 : IVec S_ 1 := andi main_v13 main_v17
  let main_v19 : FVec F S78x138 .f32 := Host.absf main_arg4
  let main_cst_6 : FVec F S_ .f32 := constant S_ .f32 0x7F800000#32
  let main_v20 : FVec F S78x138 .f32 := broadcastInDim S78x138 ![] bcast_S_S78x138 main_cst_6
  let main_v21 : IVec S78x138 1 := cmpf .olt main_v19 main_v20
  let main_c_7 : IVec S_ 1 := constantI S_ 1 1#1
  let main_v22 : IVec S_ 1 := (fun x v => Host.reduce IntOp.andi x v reducesTo_S78x138_S_d0_1 h_S_) main_v21 main_c_7
  let main_v23 : IVec S_ 1 := andi main_v18 main_v22
  let main_v24 : FVec F S156x78 .f32 := Host.absf main_arg5
  let main_cst_8 : FVec F S_ .f32 := constant S_ .f32 0x7F800000#32
  let main_v25 : FVec F S156x78 .f32 := broadcastInDim S156x78 ![] bcast_S_S156x78 main_cst_8
  let main_v26 : IVec S156x78 1 := cmpf .olt main_v24 main_v25
  let main_c_9 : IVec S_ 1 := constantI S_ 1 1#1
  let main_v27 : IVec S_ 1 := (fun x v => Host.reduce IntOp.andi x v reducesTo_S156x78_S_d0_1 h_S_) main_v26 main_c_9
  let main_v28 : IVec S_ 1 := andi main_v23 main_v27
  let main_v29 : FVec F S156 .f32 := Host.absf main_arg6
  let main_cst_10 : FVec F S_ .f32 := constant S_ .f32 0x7F800000#32
  let main_v30 : FVec F S156 .f32 := broadcastInDim S156 ![] bcast_S_S156 main_cst_10
  let main_v31 : IVec S156 1 := cmpf .olt main_v29 main_v30
  let main_c_11 : IVec S_ 1 := constantI S_ 1 1#1
  let main_v32 : IVec S_ 1 := (fun x v => Host.reduce IntOp.andi x v reducesTo_S156_S_d0 h_S_) main_v31 main_c_11
  let main_v33 : IVec S_ 1 := andi main_v28 main_v32
  fn_part2 (F := F) main_arg7 main_v33

def fn {F : FTy → Type} [FloatOps F] (main_arg0 : FVec F S524288x69x1 .f32) (main_arg1 : FVec F S138x69 .f32) (main_arg2 : FVec F S138 .f32) (main_arg3 : FVec F S138x69 .f32) (main_arg4 : FVec F S78x138 .f32) (main_arg5 : FVec F S156x78 .f32) (main_arg6 : FVec F S156 .f32) (main_arg7 : FVec F S156x78 .f32) : IVec S_ 1 :=
  let main_v0 : FVec F S524288x69x1 .f32 := Host.absf main_arg0
  let main_cst : FVec F S_ .f32 := constant S_ .f32 0x7F800000#32
  let main_v1 : FVec F S524288x69x1 .f32 := broadcastInDim S524288x69x1 ![] bcast_S_S524288x69x1 main_cst
  let main_v2 : IVec S524288x69x1 1 := cmpf .olt main_v0 main_v1
  let main_c : IVec S_ 1 := constantI S_ 1 1#1
  let main_v3 : IVec S_ 1 := (fun x v => Host.reduce IntOp.andi x v reducesTo_S524288x69x1_S_d0_1_2 h_S_) main_v2 main_c
  let main_v4 : FVec F S138x69 .f32 := Host.absf main_arg1
  let main_cst_0 : FVec F S_ .f32 := constant S_ .f32 0x7F800000#32
  let main_v5 : FVec F S138x69 .f32 := broadcastInDim S138x69 ![] bcast_S_S138x69 main_cst_0
  let main_v6 : IVec S138x69 1 := cmpf .olt main_v4 main_v5
  let main_c_1 : IVec S_ 1 := constantI S_ 1 1#1
  let main_v7 : IVec S_ 1 := (fun x v => Host.reduce IntOp.andi x v reducesTo_S138x69_S_d0_1 h_S_) main_v6 main_c_1
  let main_v8 : IVec S_ 1 := andi main_v3 main_v7
  let main_v9 : FVec F S138 .f32 := Host.absf main_arg2
  let main_cst_2 : FVec F S_ .f32 := constant S_ .f32 0x7F800000#32
  let main_v10 : FVec F S138 .f32 := broadcastInDim S138 ![] bcast_S_S138 main_cst_2
  let main_v11 : IVec S138 1 := cmpf .olt main_v9 main_v10
  let main_c_3 : IVec S_ 1 := constantI S_ 1 1#1
  let main_v12 : IVec S_ 1 := (fun x v => Host.reduce IntOp.andi x v reducesTo_S138_S_d0 h_S_) main_v11 main_c_3
  let main_v13 : IVec S_ 1 := andi main_v8 main_v12
  let main_v14 : FVec F S138x69 .f32 := Host.absf main_arg3
  let main_cst_4 : FVec F S_ .f32 := constant S_ .f32 0x7F800000#32
  let main_v15 : FVec F S138x69 .f32 := broadcastInDim S138x69 ![] bcast_S_S138x69 main_cst_4
  let main_v16 : IVec S138x69 1 := cmpf .olt main_v14 main_v15
  fn_part1 (F := F) main_arg4 main_arg5 main_arg6 main_arg7 main_v13 main_v16
-- ==== Kernel.lean ====
abbrev S524288x69x1 : Shape := ⟨3, ![524288, 69, 1]⟩
abbrev S138x69 : Shape := ⟨2, ![138, 69]⟩
abbrev S138 : Shape := ⟨1, ![138]⟩
abbrev S78x138 : Shape := ⟨2, ![78, 138]⟩
abbrev S156x78 : Shape := ⟨2, ![156, 78]⟩
abbrev S156 : Shape := ⟨1, ![156]⟩
abbrev S524288x69 : Shape := ⟨2, ![524288, 69]⟩
abbrev S69x138 : Shape := ⟨2, ![69, 138]⟩
abbrev S138x78 : Shape := ⟨2, ![138, 78]⟩
abbrev S78x156 : Shape := ⟨2, ![78, 156]⟩
abbrev S1x138 : Shape := ⟨2, ![1, 138]⟩
abbrev S1x156 : Shape := ⟨2, ![1, 156]⟩
abbrev S69x78 : Shape := ⟨2, ![69, 78]⟩
abbrev S1x78 : Shape := ⟨2, ![1, 78]⟩
abbrev S524288x78 : Shape := ⟨2, ![524288, 78]⟩
abbrev S524288x156 : Shape := ⟨2, ![524288, 156]⟩
abbrev S4096x69 : Shape := ⟨2, ![4096, 69]⟩
abbrev S4096x78 : Shape := ⟨2, ![4096, 78]⟩
abbrev S4096x156 : Shape := ⟨2, ![4096, 156]⟩
abbrev S512x69 : Shape := ⟨2, ![512, 69]⟩
abbrev S512x78 : Shape := ⟨2, ![512, 78]⟩
abbrev S512x156 : Shape := ⟨2, ![512, 156]⟩

abbrev nBuf : Space → Nat
  | .hbm => 20
  | .vmem => 10
  | .smem => 0
  | _ => 0

abbrev bufTy : (tb : Table) → Fin (tcTables nBuf tb) → BufTy
  | .hbm, ⟨0, _⟩ => ⟨S524288x69x1, .f32⟩
  | .hbm, ⟨1, _⟩ => ⟨S138x69, .f32⟩
  | .hbm, ⟨2, _⟩ => ⟨S138, .f32⟩
  | .hbm, ⟨3, _⟩ => ⟨S138x69, .f32⟩
  | .hbm, ⟨4, _⟩ => ⟨S78x138, .f32⟩
  | .hbm, ⟨5, _⟩ => ⟨S156x78, .f32⟩
  | .hbm, ⟨6, _⟩ => ⟨S156, .f32⟩
  | .hbm, ⟨7, _⟩ => ⟨S156x78, .f32⟩
  | .hbm, ⟨8, _⟩ => ⟨S524288x69, .f32⟩
  | .hbm, ⟨9, _⟩ => ⟨S138x69, .f32⟩
  | .hbm, ⟨10, _⟩ => ⟨S69x138, .f32⟩
  | .hbm, ⟨11, _⟩ => ⟨S138x78, .f32⟩
  | .hbm, ⟨12, _⟩ => ⟨S156x78, .f32⟩
  | .hbm, ⟨13, _⟩ => ⟨S78x156, .f32⟩
  | .hbm, ⟨14, _⟩ => ⟨S1x138, .f32⟩
  | .hbm, ⟨15, _⟩ => ⟨S1x156, .f32⟩
  | .hbm, ⟨16, _⟩ => ⟨S69x78, .f32⟩
  | .hbm, ⟨17, _⟩ => ⟨S1x78, .f32⟩
  | .hbm, ⟨18, _⟩ => ⟨S524288x78, .f32⟩
  | .hbm, ⟨19, _⟩ => ⟨S524288x156, .f32⟩
  | .local _ .vmem, ⟨0, _⟩ => ⟨S4096x69, .f32⟩
  | .local _ .vmem, ⟨1, _⟩ => ⟨S4096x69, .f32⟩
  | .local _ .vmem, ⟨2, _⟩ => ⟨S69x78, .f32⟩
  | .local _ .vmem, ⟨3, _⟩ => ⟨S1x78, .f32⟩
  | .local _ .vmem, ⟨4, _⟩ => ⟨S78x156, .f32⟩
  | .local _ .vmem, ⟨5, _⟩ => ⟨S1x156, .f32⟩
  | .local _ .vmem, ⟨6, _⟩ => ⟨S4096x78, .f32⟩
  | .local _ .vmem, ⟨7, _⟩ => ⟨S4096x78, .f32⟩
  | .local _ .vmem, ⟨8, _⟩ => ⟨S4096x156, .f32⟩
  | .local _ .vmem, ⟨9, _⟩ => ⟨S4096x156, .f32⟩
  | _, _ => ⟨S524288x69x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c512_i32 : BitVec 32 := 512#32
  let v11 : BitVec 32 := Scalar.muli arg8 c512_i32
  v11
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v11 : BitVec 32 := Scalar.muli arg8 c512_i32
  let v12 : BitVec 32 := v11
  let v13 : Index := Scalar.indexCast v12
  let c0_8 : Index := 0#32
  ![v13.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v11 : BitVec 32 := Scalar.muli arg8 c512_i32
  let v12 : BitVec 32 := v11
  let v25 : Index := Scalar.indexCast v12
  let c0_11 : Index := 0#32
  ![v25.toNat, 0]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v11 : BitVec 32 := Scalar.muli arg8 c512_i32
  let v12 : BitVec 32 := v11
  let v36 : Index := Scalar.indexCast v12
  let c0_15 : Index := 0#32
  ![v36.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x69 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S69x78 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x78 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S78x156 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x156 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x78 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x156 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S524288x69x1_S524288x69 : S524288x69x1.ShapeCasts S524288x69
  transposes_S138x69_S69x138_1_0 : S138x69.Transposes [1, 0] S69x138
  transposes_S78x138_S138x78_1_0 : S78x138.Transposes [1, 0] S138x78
  transposes_S156x78_S78x156_1_0 : S156x78.Transposes [1, 0] S78x156
  shapeCasts_S138_S1x138 : S138.ShapeCasts S1x138
  shapeCasts_S156_S1x156 : S156.ShapeCasts S1x156
  inb_S69x78_S69x78_0_0 : ∀ a, (![0, 0] : Fin 2 → Nat) a + S69x78.size a ≤ S69x78.size a
  h_S69x78 : 0 < S69x78.numel
  shapeCasts_S69x78_S69x78 : S69x78.ShapeCasts S69x78
  bitsLt_bf16_f32 : FTy.bits .bf16 < FTy.bits .f32
  inb_S1x78_S1x78_0_0 : ∀ a, (![0, 0] : Fin 2 → Nat) a + S1x78.size a ≤ S1x78.size a
  h_S1x78 : 0 < S1x78.numel
  shapeCasts_S1x78_S1x78 : S1x78.ShapeCasts S1x78
  inb_S78x156_S78x156_0_0 : ∀ a, (![0, 0] : Fin 2 → Nat) a + S78x156.size a ≤ S78x156.size a
  h_S78x156 : 0 < S78x156.numel
  shapeCasts_S78x156_S78x156 : S78x156.ShapeCasts S78x156
  inb_S1x156_S1x156_0_0 : ∀ a, (![0, 0] : Fin 2 → Nat) a + S1x156.size a ≤ S1x156.size a
  h_S1x156 : 0 < S1x156.numel
  shapeCasts_S1x156_S1x156 : S1x156.ShapeCasts S1x156
  h_S512x69 : 0 < S512x69.numel
  shapeCasts_S512x69_S512x69 : S512x69.ShapeCasts S512x69
  broadcasts_S1x78_S512x78 : S1x78.Broadcasts S512x78
  h_S512x78 : 0 < S512x78.numel
  broadcasts_S1x156_S512x156 : S1x156.Broadcasts S512x156
  h_S512x156 : 0 < S512x156.numel
  dot_S69x138_S138x78_S69x78_1_0_0_1_n_n_wf : DotDims.WF S69x138 S138x78 S69x78 [1] [0] [0] [1] [] []
  dot_S1x138_S138x78_S1x78_1_0_0_1_n_n_wf : DotDims.WF S1x138 S138x78 S1x78 [1] [0] [0] [1] [] []
  dot_S512x69_S69x78_S512x78_1_0_0_1_n_n_wf : DotDims.WF S512x69 S69x78 S512x78 [1] [0] [0] [1] [] []
  dot_S512x78_S78x156_S512x156_1_0_0_1_n_n_wf : DotDims.WF S512x78 S78x156 S512x156 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x69.size a ≤ S4096x69.size a
  k0_off2_inb : ∀ k0_t1 : Fin k0_t1_loop.trips, ∀ a, (k0_off2 k0_t1) a + S512x78.size a ≤ S4096x78.size a
  k0_off3_inb : ∀ k0_t1 : Fin k0_t1_loop.trips, ∀ a, (k0_off3 k0_t1) a + S512x156.size a ≤ S4096x156.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x69.size a ≤ S524288x69.size a
  hwx0_0 : ∀ i : grid0.Coords, EltTy.bits .f32 = 32 ∨ (Rect.block (s := S524288x69) S4096x69.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S69x78.size a ≤ S69x78.size a
  hwx0_1 : ∀ i : grid0.Coords, EltTy.bits .f32 = 32 ∨ (Rect.block (s := S69x78) S69x78.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x78.size a ≤ S1x78.size a
  hwx0_2 : ∀ i : grid0.Coords, EltTy.bits .f32 = 32 ∨ (Rect.block (s := S1x78) S1x78.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S78x156.size a ≤ S78x156.size a
  hwx0_3 : ∀ i : grid0.Coords, EltTy.bits .f32 = 32 ∨ (Rect.block (s := S78x156) S78x156.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x156.size a ≤ S1x156.size a
  hwx0_4 : ∀ i : grid0.Coords, EltTy.bits .f32 = 32 ∨ (Rect.block (s := S1x156) S1x156.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x78.size a ≤ S524288x78.size a
  hwx0_5 : ∀ i : grid0.Coords, EltTy.bits .f32 = 32 ∨ (Rect.block (s := S524288x78) S4096x78.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x156.size a ≤ S524288x156.size a
  hwx0_6 : ∀ i : grid0.Coords, EltTy.bits .f32 = 32 ∨ (Rect.block (s := S524288x156) S4096x156.size (cc0_transform_6 i) (hinb0_6 i)).WholeWords (EltTy.packing .f32)

variable [Facts₀]

def dot_S69x138_S138x78_S69x78_1_0_0_1_n_n : DotDims S69x138 S138x78 S69x78 where
  lhsContracting := [1]
  rhsContracting := [0]
  lhsNonContracting := [0]
  rhsNonContracting := [1]
  lhsBatch := []
  rhsBatch := []
  wf := dot_S69x138_S138x78_S69x78_1_0_0_1_n_n_wf
def dot_S1x138_S138x78_S1x78_1_0_0_1_n_n : DotDims S1x138 S138x78 S1x78 where
  lhsContracting := [1]
  rhsContracting := [0]
  lhsNonContracting := [0]
  rhsNonContracting := [1]
  lhsBatch := []
  rhsBatch := []
  wf := dot_S1x138_S138x78_S1x78_1_0_0_1_n_n_wf
def dot_S512x69_S69x78_S512x78_1_0_0_1_n_n : DotDims S512x69 S69x78 S512x78 where
  lhsContracting := [1]
  rhsContracting := [0]
  lhsNonContracting := [0]
  rhsNonContracting := [1]
  lhsBatch := []
  rhsBatch := []
  wf := dot_S512x69_S69x78_S512x78_1_0_0_1_n_n_wf
def dot_S512x78_S78x156_S512x156_1_0_0_1_n_n : DotDims S512x78 S78x156 S512x156 where
  lhsContracting := [1]
  rhsContracting := [0]
  lhsNonContracting := [0]
  rhsNonContracting := [1]
  lhsBatch := []
  rhsBatch := []
  wf := dot_S512x78_S78x156_S512x156_1_0_0_1_n_n_wf

abbrev win0_0 : Pipeline.Window sig grid0 :=
  Pipeline.Window.ofSpec (Memref.whole main_v0) S4096x69.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S69x78.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x78.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S78x156.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x156.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S4096x78.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S4096x156.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S524288x69x1 : Shape := ⟨3, ![524288, 69, 1]⟩
abbrev S138x69 : Shape := ⟨2, ![138, 69]⟩
abbrev S138 : Shape := ⟨1, ![138]⟩
abbrev S78x138 : Shape := ⟨2, ![78, 138]⟩
abbrev S156x78 : Shape := ⟨2, ![156, 78]⟩
abbrev S156 : Shape := ⟨1, ![156]⟩
abbrev S524288x69 : Shape := ⟨2, ![524288, 69]⟩
abbrev S69x138 : Shape := ⟨2, ![69, 138]⟩
abbrev S524288x138 : Shape := ⟨2, ![524288, 138]⟩
abbrev S1x138 : Shape := ⟨2, ![1, 138]⟩
abbrev S138x78 : Shape := ⟨2, ![138, 78]⟩
abbrev S524288x78 : Shape := ⟨2, ![524288, 78]⟩
abbrev S_ : Shape := ⟨0, ![]⟩
abbrev S78x156 : Shape := ⟨2, ![78, 156]⟩
abbrev S524288x156 : Shape := ⟨2, ![524288, 156]⟩
abbrev S1x156 : Shape := ⟨2, ![1, 156]⟩

abbrev nBuf : Space → Nat
  | .hbm => 39
  | .vmem => 0
  | .smem => 0
  | _ => 0

abbrev bufTy : (tb : Table) → Fin (tcTables nBuf tb) → BufTy
  | .hbm, ⟨0, _⟩ => ⟨S524288x69x1, .f32⟩
  | .hbm, ⟨1, _⟩ => ⟨S138x69, .f32⟩
  | .hbm, ⟨2, _⟩ => ⟨S138, .f32⟩
  | .hbm, ⟨3, _⟩ => ⟨S138x69, .f32⟩
  | .hbm, ⟨4, _⟩ => ⟨S78x138, .f32⟩
  | .hbm, ⟨5, _⟩ => ⟨S156x78, .f32⟩
  | .hbm, ⟨6, _⟩ => ⟨S156, .f32⟩
  | .hbm, ⟨7, _⟩ => ⟨S156x78, .f32⟩
  | .hbm, ⟨8, _⟩ => ⟨S524288x69, .f32⟩
  | .hbm, ⟨9, _⟩ => ⟨S138x69, .f32⟩
  | .hbm, ⟨10, _⟩ => ⟨S69x138, .f32⟩
  | .hbm, ⟨11, _⟩ => ⟨S524288x138, .f32⟩
  | .hbm, ⟨12, _⟩ => ⟨S1x138, .f32⟩
  | .hbm, ⟨13, _⟩ => ⟨S524288x138, .f32⟩
  | .hbm, ⟨14, _⟩ => ⟨S524288x138, .f32⟩
  | .hbm, ⟨15, _⟩ => ⟨S138x78, .f32⟩
  | .hbm, ⟨16, _⟩ => ⟨S524288x78, .f32⟩
  | .hbm, ⟨17, _⟩ => ⟨S_, .f32⟩
  | .hbm, ⟨18, _⟩ => ⟨S_, .f32⟩
  | .hbm, ⟨19, _⟩ => ⟨S524288x78, .f32⟩
  | .hbm, ⟨20, _⟩ => ⟨S524288x78, .i1⟩
  | .hbm, ⟨21, _⟩ => ⟨S_, .f32⟩
  | .hbm, ⟨22, _⟩ => ⟨S524288x78, .f32⟩
  | .hbm, ⟨23, _⟩ => ⟨S524288x78, .f32⟩
  | .hbm, ⟨24, _⟩ => ⟨S524288x78, .f32⟩
  | .hbm, ⟨25, _⟩ => ⟨S156x78, .f32⟩
  | .hbm, ⟨26, _⟩ => ⟨S78x156, .f32⟩
  | .hbm, ⟨27, _⟩ => ⟨S524288x156, .f32⟩
  | .hbm, ⟨28, _⟩ => ⟨S1x156, .f32⟩
  | .hbm, ⟨29, _⟩ => ⟨S524288x156, .f32⟩
  | .hbm, ⟨30, _⟩ => ⟨S524288x156, .f32⟩
  | .hbm, ⟨31, _⟩ => ⟨S_, .f32⟩
  | .hbm, ⟨32, _⟩ => ⟨S_, .f32⟩
  | .hbm, ⟨33, _⟩ => ⟨S524288x156, .f32⟩
  | .hbm, ⟨34, _⟩ => ⟨S524288x156, .i1⟩
  | .hbm, ⟨35, _⟩ => ⟨S_, .f32⟩
  | .hbm, ⟨36, _⟩ => ⟨S524288x156, .f32⟩
  | .hbm, ⟨37, _⟩ => ⟨S524288x156, .f32⟩
  | .hbm, ⟨38, _⟩ => ⟨S524288x156, .f32⟩
  | _, _ => ⟨S524288x69x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v16 : Ref sig .tc := ⟨.hbm, 38, rfl⟩

abbrev nD : Nat := 1
abbrev τ : Topo := Topo.v7x

variable {F : FTy → Type} [FloatOps F]

class Facts₀ : Prop where
  shapeCasts_S524288x69x1_S524288x69 : S524288x69x1.ShapeCasts S524288x69
  transposes_S138x69_S69x138_1_0 : S138x69.Transposes [1, 0] S69x138
  bcast_S138_S1x138_1 : S138.BroadcastsInDim S1x138 (![1] : Fin 1 → Fin S1x138.rank)
  bcast_S1x138_S524288x138_0_1 : S1x138.BroadcastsInDim S524288x138 (![0, 1] : Fin 2 → Fin S524288x138.rank)
  transposes_S78x138_S138x78_1_0 : S78x138.Transposes [1, 0] S138x78
  bcast_S_S524288x78 : S_.BroadcastsInDim S524288x78 (![] : Fin 0 → Fin S524288x78.rank)
  transposes_S156x78_S78x156_1_0 : S156x78.Transposes [1, 0] S78x156
  bcast_S156_S1x156_1 : S156.BroadcastsInDim S1x156 (![1] : Fin 1 → Fin S1x156.rank)
  bcast_S1x156_S524288x156_0_1 : S1x156.BroadcastsInDim S524288x156 (![0, 1] : Fin 2 → Fin S524288x156.rank)
  bcast_S_S524288x156 : S_.BroadcastsInDim S524288x156 (![] : Fin 0 → Fin S524288x156.rank)
  dot_S524288x69_S69x138_S524288x138_1_0_0_1_n_n_wf : DotDims.WF S524288x69 S69x138 S524288x138 [1] [0] [0] [1] [] []
  dot_S524288x138_S138x78_S524288x78_1_0_0_1_n_n_wf : DotDims.WF S524288x138 S138x78 S524288x78 [1] [0] [0] [1] [] []
  dot_S524288x78_S78x156_S524288x156_1_0_0_1_n_n_wf : DotDims.WF S524288x78 S78x156 S524288x156 [1] [0] [0] [1] [] []

variable [Facts₀]

def dot_S524288x69_S69x138_S524288x138_1_0_0_1_n_n : DotDims S524288x69 S69x138 S524288x138 where
  lhsContracting := [1]
  rhsContracting := [0]
  lhsNonContracting := [0]
  rhsNonContracting := [1]
  lhsBatch := []
  rhsBatch := []
  wf := dot_S524288x69_S69x138_S524288x138_1_0_0_1_n_n_wf
def dot_S524288x138_S138x78_S524288x78_1_0_0_1_n_n : DotDims S524288x138 S138x78 S524288x78 where
  lhsContracting := [1]
  rhsContracting := [0]
  lhsNonContracting := [0]
  rhsNonContracting := [1]
  lhsBatch := []
  rhsBatch := []
  wf := dot_S524288x138_S138x78_S524288x78_1_0_0_1_n_n_wf
def dot_S524288x78_S78x156_S524288x156_1_0_0_1_n_n : DotDims S524288x78 S78x156 S524288x156 where
  lhsContracting := [1]
  rhsContracting := [0]
  lhsNonContracting := [0]
  rhsNonContracting := [1]
  lhsBatch := []
  rhsBatch := []
  wf := dot_S524288x78_S78x156_S524288x156_1_0_0_1_n_n_wf

class Facts : Prop extends Facts₀ where

variable [Facts]
-- ==== Proof.Spec.lean ====
/-
  The two results as functions of the argument arrays, entry by entry, on the extended reals.

  A two-layer network over rows of 69 numbers. Layer 0 multiplies a row by a masked weight matrix (138 x 69, the mask
  applied entry by entry), adds a bias, averages groups of the 138 results through a pooling matrix (78 x 138) and
  applies a leaky rectifier; layer 1 multiplies the 78 results by a second masked weight matrix (156 x 78), adds a
  bias and applies the rectifier again. The results are the 78 numbers after layer 0 and the 156 after layer 1, per row.

  The reference pools AFTER the bias is added:       sum_j (sum_k x_k w_jk + b_j) p_qj.
  The kernel pools the weights and the bias FIRST:   sum_k x_k (sum_j w_jk p_qj) + sum_j b_j p_qj.
  `preR` and `preK` below are these two; everything after them is one and the same function of the pre-activation.
-/
import Idealize.ShloMosaic.PureOps.Ideal
import Idealize.ShloMosaic.Lib.ValueIdx

noncomputable section

namespace Cert.Spec

open Idealize.ShloMosaic Idealize.ShloMosaic.ValueIdx

/-- The argument and result shapes. -/
abbrev SX : Shape := ⟨3, ![524288, 69, 1]⟩
abbrev SW1 : Shape := ⟨2, ![138, 69]⟩
abbrev SB1 : Shape := ⟨1, ![138]⟩
abbrev SPool : Shape := ⟨2, ![78, 138]⟩
abbrev SW2 : Shape := ⟨2, ![156, 78]⟩
abbrev SB2 : Shape := ⟨1, ![156]⟩

/-- The rectifier's slope below zero, the binary32 number nearest 0.2, and its threshold. -/
def slope : EReal := Ideal.ofBits .f32 0x3E4CCCCD#32
def zero : EReal := Ideal.ofBits .f32 0x00000000#32

/-- The leaky rectifier: `v` where `v ≥ 0`, `slope · v` elsewhere, spelt with the comparison and the choice both programs use. -/
def act (v : EReal) : EReal := Scalar.select (Ideal.cmp .oge v zero) v (slope * v)

/-- A masked weight: the weight times the mask's entry. -/
def wm1 (W1 mask1 : SW1.Idx → EReal) (j : Fin 138) (k : Fin 69) : EReal := W1 (ix2 j k) * mask1 (ix2 j k)
def wm2 (W2 mask2 : SW2.Idx → EReal) (n : Fin 156) (q : Fin 78) : EReal := W2 (ix2 n q) * mask2 (ix2 n q)

/-- The pooled weights and the pooled bias of layer 0. -/
def wc (W1 mask1 : SW1.Idx → EReal) (pool : SPool.Idx → EReal) (k : Fin 69) (q : Fin 78) : EReal :=
  ∑ j : Fin 138, wm1 W1 mask1 j k * pool (ix2 q j)
def bc (b1 : SB1.Idx → EReal) (pool : SPool.Idx → EReal) (q : Fin 78) : EReal :=
  ∑ j : Fin 138, b1 (ix1 j) * pool (ix2 q j)

/-- Layer 0 before the rectifier, pooled weights first (the kernel's order). -/
def preK (x : SX.Idx → EReal) (W1 : SW1.Idx → EReal) (b1 : SB1.Idx → EReal) (mask1 : SW1.Idx → EReal) (pool : SPool.Idx → EReal)
    (r : Fin 524288) (q : Fin 78) : EReal :=
  (∑ k : Fin 69, x (ix3 r k (0 : Fin 1)) * wc W1 mask1 pool k q) + bc b1 pool q

/-- Layer 0 before the rectifier, pooled last (the reference's order). -/
def preR (x : SX.Idx → EReal) (W1 : SW1.Idx → EReal) (b1 : SB1.Idx → EReal) (mask1 : SW1.Idx → EReal) (pool : SPool.Idx → EReal)
    (r : Fin 524288) (q : Fin 78) : EReal :=
  ∑ j : Fin 138, ((∑ k : Fin 69, x (ix3 r k (0 : Fin 1)) * wm1 W1 mask1 j k) + b1 (ix1 j)) * pool (ix2 q j)

/-- Layer 1 of the rows `a1`: the masked product, the bias, the rectifier. -/
def layer1 (a1 : Fin 524288 → Fin 78 → EReal) (W2 : SW2.Idx → EReal) (b2 : SB2.Idx → EReal) (mask2 : SW2.Idx → EReal)
    (r : Fin 524288) (n : Fin 156) : EReal :=
  act ((∑ q : Fin 78, a1 r q * wm2 W2 mask2 n q) + b2 (ix1 n))

/-- A function of a row and a column as a rank-2 array. -/
def arr2 {a b : ℕ} (f : Fin a → Fin b → EReal) : (⟨2, ![a, b]⟩ : Shape).Idx → EReal := fun i => f (i 0) (i 1)

theorem arr2_apply {a b : ℕ} (f : Fin a → Fin b → EReal) (p : Fin a) (q : Fin b) : arr2 f (ix2 p q) = f p q := rfl

end Cert.Spec

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«106287_j49211735277649_2_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.KHost.lean ====
/-
  What the kernel's region finds in the arrays its windows read, entry by entry.

  Before the region the program reshapes the rows of x to a matrix, multiplies each weight matrix by its mask and
  transposes it, transposes the pooling matrix, lays each bias out as a one-row matrix, and multiplies the masked,
  transposed layer-0 weights (69 x 138) and the layer-0 bias row (1 x 138) by the transposed pooling matrix (138 x 78).
  Read at an entry these are the specification's pooled weights `wc`, pooled bias `bc` and masked weights `wm2`:
  a transpose swaps the two coordinates, a reshape keeps the row-major position, and a matrix product is the sum over
  the contracted coordinate.
-/
import proofs.«106287_j49211735277649_2_alg».proof.Proof.Gen.KernelIdeal.Frame
import proofs.«106287_j49211735277649_2_alg».proof.Proof.Spec
import proofs.«106287_j49211735277649_2_alg».proof.Proof.LibPlainDot
import Idealize.ShloMosaic.Lib.Pipeline.Value
import Idealize.ShloMosaic.Lib.ValueIdx
import Idealize.ShloMosaic.Lib.ValueLayout
import Idealize.ShloMosaic.Lib.StableHlo.Run

noncomputable section

namespace Cert.KHost

open Cert.KernelIdeal Cert.KernelIdeal.Gen Idealize.ShloMosaic Idealize.ShloMosaic.TcCoe Idealize.SL.Sem
open Idealize.ShloMosaic.ValueIdx Cert.Spec Cert.LibHostRead Cert.LibPlainDot

variable (m : (ℓ : Loc nD τ sig) → Buf (Elt Ideal) ℓ)

/-- The eight argument arrays on core `c`, as functions of an index. -/
abbrev aX (c : Dev nD) : FVec Ideal SX .f32 := m ((c : Thread nD τ).loc main_arg0)
abbrev aW1 (c : Dev nD) : FVec Ideal SW1 .f32 := m ((c : Thread nD τ).loc main_arg1)
abbrev aB1 (c : Dev nD) : FVec Ideal SB1 .f32 := m ((c : Thread nD τ).loc main_arg2)
abbrev aM1 (c : Dev nD) : FVec Ideal SW1 .f32 := m ((c : Thread nD τ).loc main_arg3)
abbrev aP (c : Dev nD) : FVec Ideal SPool .f32 := m ((c : Thread nD τ).loc main_arg4)
abbrev aW2 (c : Dev nD) : FVec Ideal SW2 .f32 := m ((c : Thread nD τ).loc main_arg5)
abbrev aB2 (c : Dev nD) : FVec Ideal SB2 .f32 := m ((c : Thread nD τ).loc main_arg6)
abbrev aM2 (c : Dev nD) : FVec Ideal SW2 .f32 := m ((c : Thread nD τ).loc main_arg7)

/-- The two products before the region are plain rows-times-columns products. -/
theorem plain_wc : PlainDot dot_S69x138_S138x78_S69x78_1_0_0_1_n_n := plainDot_plain 69 138 78
theorem plain_bc : PlainDot dot_S1x138_S138x78_S1x78_1_0_0_1_n_n := plainDot_plain 1 138 78

/-- A `[a, b, 1]` array reshaped to `[a, b]` reads, at `(p, k)`, the operand at `(p, k, 0)`. -/
theorem shapeCast_ab1_ab_apply {α : Type} {a b : ℕ} (x : (⟨3, ![a, b, 1]⟩ : Shape).Idx → α)
    (h : (⟨3, ![a, b, 1]⟩ : Shape).ShapeCasts ⟨2, ![a, b]⟩) (p : Fin a) (k : Fin b) :
    shapeCast ⟨2, ![a, b]⟩ x h (ix2 p k) = x (ix3 p k (0 : Fin 1)) :=
  shapeCast_apply x h _ _ (by
    rw [Shape.rowMajor_val_two, Shape.rowMajor_val_three]
    show (p.val * b + k.val) * 1 + 0 = p.val * b + k.val
    omega)

/-- Window 0's array: the rows of x. -/
theorem v0_apply (c : Dev nD) (r : Fin 524288) (k : Fin 69) :
    @Eq EReal ((V m c main_v0 : S524288x69.Idx → EReal) (ix2 r k)) (aX m c (ix3 r k (0 : Fin 1))) := by
  have e : (V m c main_v0 : S524288x69.Idx → EReal)
      = shapeCast S524288x69 (aX m c) shapeCasts_S524288x69x1_S524288x69 := by
    dsimp only [V, hostOps0]; after_results; rfl
  rw [e]
  exact shapeCast_ab1_ab_apply _ _ r k

/-- Window 1's array: the pooled weights of layer 0. -/
theorem v8_apply (c : Dev nD) (k : Fin 69) (q : Fin 78) :
    @Eq EReal ((V m c main_v8 : S69x78.Idx → EReal) (ix2 k q)) (wc (aW1 m c) (aM1 m c) (aP m c) k q) := by
  have e : (V m c main_v8 : S69x78.Idx → EReal)
      = Host.dotGeneral (F := Ideal) dot_S69x138_S138x78_S69x78_1_0_0_1_n_n none
          (transpose S69x138 [1, 0] (mulf (aW1 m c) (aM1 m c)) transposes_S138x69_S69x138_1_0)
          (transpose S138x78 [1, 0] (aP m c) transposes_S78x138_S138x78_1_0) := by
    dsimp only [V, hostOps0]; after_results
  rw [e, hdot_apply _ plain_wc]
  unfold wc wm1
  refine Finset.sum_congr rfl fun j _ => ?_
  rw [transpose_ix2_apply, transpose_ix2_apply, mulf_apply]

/-- Window 2's array: the pooled bias of layer 0, as one row. -/
theorem v9_apply (c : Dev nD) (q : Fin 78) :
    @Eq EReal ((V m c main_v9 : S1x78.Idx → EReal) (ix2 (0 : Fin 1) q)) (bc (aB1 m c) (aP m c) q) := by
  have e : (V m c main_v9 : S1x78.Idx → EReal)
      = Host.dotGeneral (F := Ideal) dot_S1x138_S138x78_S1x78_1_0_0_1_n_n none
          (shapeCast S1x138 (aB1 m c) shapeCasts_S138_S1x138)
          (transpose S138x78 [1, 0] (aP m c) transposes_S78x138_S138x78_1_0) := by
    dsimp only [V, hostOps0]; after_results; rfl
  rw [e, hdot_apply _ plain_bc]
  unfold bc
  refine Finset.sum_congr rfl fun j _ => ?_
  rw [transpose_ix2_apply, shapeCast_a_1a_apply]

/-- Window 3's array: the masked weights of layer 1, transposed. -/
theorem v5_apply (c : Dev nD) (q : Fin 78) (n : Fin 156) :
    @Eq EReal ((V m c main_v5 : S78x156.Idx → EReal) (ix2 q n)) (wm2 (aW2 m c) (aM2 m c) n q) := by
  have e : (V m c main_v5 : S78x156.Idx → EReal)
      = transpose S78x156 [1, 0] (mulf (aW2 m c) (aM2 m c)) transposes_S156x78_S78x156_1_0 := by
    dsimp only [V, hostOps0]; after_results
  rw [e, transpose_ix2_apply, mulf_apply]
  rfl

/-- Window 4's array: the bias of layer 1, as one row. -/
theorem v7_apply (c : Dev nD) (n : Fin 156) :
    @Eq EReal ((V m c main_v7 : S1x156.Idx → EReal) (ix2 (0 : Fin 1) n)) (aB2 m c (ix1 n)) := by
  have e : (V m c main_v7 : S1x156.Idx → EReal) = shapeCast S1x156 (aB2 m c) shapeCasts_S156_S1x156 := by
    dsimp only [V, hostOps0]; after_results; rfl
  rw [e, shapeCast_a_1a_apply]

end Cert.KHost

end
-- ==== Proof.KGrid.lean ====
/-
  From the kernel's blocks to its two result arrays.

  The grid has 128 points; point t reads rows 4096 t .. 4096 t + 4095 of x and writes the same rows of the two
  results, while the four weight and bias arrays are read whole at every point. So an entry of an input block sits,
  in its array, at the block's row offset plus its own row, and every row of a result lies in exactly one point's block:
  the point numbered by the row divided by 4096.
-/
import proofs.«106287_j49211735277649_2_alg».proof.Proof.Gen.KernelIdeal.Value
import proofs.«106287_j49211735277649_2_alg».proof.Proof.Spec
import proofs.«106287_j49211735277649_2_alg».proof.Proof.KHost
import Idealize.ShloMosaic.Lib.Pipeline.Value
import Idealize.ShloMosaic.Lib.ValueIdx

noncomputable section

namespace Cert.KGrid

open Cert.KernelIdeal Cert.KernelIdeal.Gen Idealize.ShloMosaic Idealize.ShloMosaic.TcCoe Idealize.SL.Sem
open Idealize.ShloMosaic.Pipeline (Dat)
open Idealize.ShloMosaic.ValueIdx Cert.Spec Cert.KHost

variable (m : (ℓ : Loc nD τ sig) → Buf (Elt Ideal) ℓ)

/-- The printed index maps, decided over the 128 points: the row-blocked windows are at block (t, 0), the others at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem lt128 (t : Fin cfg0.N) : t.val < 128 := lt_of_lt_of_eq t.isLt N_0

/-- Row `r` of point `t`'s block is row `4096 t + r` of the array. -/
def row (t : Fin cfg0.N) (r : Fin 4096) : Fin 524288 := ⟨t.val * 4096 + r.val, by have := lt128 t; have := r.isLt; omega⟩

/-- The x block at point `t`. -/
theorem iblk0_apply (c : Dev nD) (t : Fin cfg0.N) (r : Fin 4096) (k : Fin 69) :
    @Eq EReal (iblk m c 0 t (ix2 r k)) (aX m c (ix3 (row t r) k (0 : Fin 1))) := by
  obtain ⟨e0, e1, -⟩ := idx_facts t
  have hemb : ((cfg0.win 0).blk t).view.emb (ix2 r k) = ix2 (row t r) k := by
    funext a; apply Fin.ext
    match a with
    | ⟨0, _⟩ => show win0_0.index t (0 : Fin 2) * 4096 + 1 * r.val = t.val * 4096 + r.val; omega
    | ⟨1, _⟩ => show win0_0.index t (1 : Fin 2) * 69 + 1 * k.val = k.val; omega
  show @Eq EReal ((V m c main_v0 : S524288x69.Idx → EReal) (((cfg0.win 0).blk t).view.emb (ix2 r k))) _
  rw [hemb]
  exact v0_apply m c (row t r) k

/-- The pooled layer-0 weights, read whole at every point. -/
theorem iblk1_apply (c : Dev nD) (t : Fin cfg0.N) (k : Fin 69) (q : Fin 78) :
    @Eq EReal (iblk m c 1 t (ix2 k q)) (wc (aW1 m c) (aM1 m c) (aP m c) k q) := by
  obtain ⟨-, -, e0, e1, -⟩ := idx_facts t
  have hemb : ((cfg0.win 1).blk t).view.emb (ix2 k q) = ix2 k q := by
    funext a; apply Fin.ext
    match a with
    | ⟨0, _⟩ => show win0_1.index t (0 : Fin 2) * 69 + 1 * k.val = k.val; omega
    | ⟨1, _⟩ => show win0_1.index t (1 : Fin 2) * 78 + 1 * q.val = q.val; omega
  show @Eq EReal ((V m c main_v8 : S69x78.Idx → EReal) (((cfg0.win 1).blk t).view.emb (ix2 k q))) _
  rw [hemb]
  exact v8_apply m c k q

/-- The pooled layer-0 bias row. -/
theorem iblk2_apply (c : Dev nD) (t : Fin cfg0.N) (q : Fin 78) :
    @Eq EReal (iblk m c 2 t (ix2 (0 : Fin 1) q)) (bc (aB1 m c) (aP m c) q) := by
  obtain ⟨-, -, -, -, e0, e1, -⟩ := idx_facts t
  have hemb : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 78 + 1 * q.val = q.val; omega
  show @Eq EReal ((V m c main_v9 : S1x78.Idx → EReal) (((cfg0.win 2).blk t).view.emb (ix2 (0 : Fin 1) q))) _
  rw [hemb]
  exact v9_apply m c q

/-- The masked layer-1 weights, transposed. -/
theorem iblk3_apply (c : Dev nD) (t : Fin cfg0.N) (q : Fin 78) (n : Fin 156) :
    @Eq EReal (iblk m c 3 t (ix2 q n)) (wm2 (aW2 m c) (aM2 m c) n q) := by
  obtain ⟨-, -, -, -, -, -, e0, e1, -⟩ := idx_facts t
  have hemb : ((cfg0.win 3).blk t).view.emb (ix2 q n) = ix2 q n := by
    funext a; apply Fin.ext
    match a with
    | ⟨0, _⟩ => show win0_3.index t (0 : Fin 2) * 78 + 1 * q.val = q.val; omega
    | ⟨1, _⟩ => show win0_3.index t (1 : Fin 2) * 156 + 1 * n.val = n.val; omega
  show @Eq EReal ((V m c main_v5 : S78x156.Idx → EReal) (((cfg0.win 3).blk t).view.emb (ix2 q n))) _
  rw [hemb]
  exact v5_apply m c q n

/-- The layer-1 bias row. -/
theorem iblk4_apply (c : Dev nD) (t : Fin cfg0.N) (n : Fin 156) :
    @Eq EReal (iblk m c 4 t (ix2 (0 : Fin 1) n)) (aB2 m c (ix1 n)) := by
  obtain ⟨-, -, -, -, -, -, -, -, e0, e1, -⟩ := idx_facts t
  have hemb : ((cfg0.win 4).blk t).view.emb (ix2 (0 : Fin 1) n) = ix2 (0 : Fin 1) n := by
    funext a; apply Fin.ext
    match a with
    | ⟨0, _⟩ => show win0_4.index t (0 : Fin 2) * 1 + 1 * 0 = 0; omega
    | ⟨1, _⟩ => show win0_4.index t (1 : Fin 2) * 156 + 1 * n.val = n.val; omega
  show @Eq EReal ((V m c main_v7 : S1x156.Idx → EReal) (((cfg0.win 4).blk t).view.emb (ix2 (0 : Fin 1) n))) _
  rw [hemb]
  exact v7_apply m c n

/-- An index of the first result is in point `t`'s block iff each coordinate is in the block's range on its axis. -/
theorem mem_blk5 (t : Fin cfg0.N) (i : S524288x78.Idx) :
    i ∈ ((cfg0.win 5).blk t).view.set ↔ ∀ a : Fin 2, win0_5.index t a * S4096x78.size a ≤ (i a).val ∧ (i a).val < win0_5.index t a * S4096x78.size a + S4096x78.size a := by
  show i ∈ ((View.whole main_v10_0).slice (win0_5.rect t)).set ↔ _
  rw [View.set_slice_whole, Rect.mem_set_unit]
  exact Iff.rfl

theorem mem_blk6 (t : Fin cfg0.N) (i : S524288x156.Idx) :
    i ∈ ((cfg0.win 6).blk t).view.set ↔ ∀ a : Fin 2, win0_6.index t a * S4096x156.size a ≤ (i a).val ∧ (i a).val < win0_6.index t a * S4096x156.size a + S4096x156.size a := by
  show i ∈ ((View.whole main_v10_1).slice (win0_6.rect t)).set ↔ _
  rw [View.set_slice_whole, Rect.mem_set_unit]
  exact Iff.rfl

/-- The point whose block holds row `n`. -/
def pointOf (n : ℕ) (h : n < 524288) : Fin cfg0.N := ⟨n / 4096, by rw [show cfg0.N = 128 from N_0]; omega⟩

/-- Every entry of the first result is in some point's block. -/
theorem cover5 (i : S524288x78.Idx) : ∃ t : Fin cfg0.N, (cfg0.win 5).flush t = true ∧ i ∈ ((cfg0.win 5).blk t).view.set := by
  have hi0 : (i 0).val < 524288 := (i 0).isLt
  have hi1 : (i 1).val < 78 := (i 1).isLt
  obtain ⟨-, -, -, -, -, -, -, -, -, -, e0, e1, -⟩ := idx_facts (pointOf (i 0).val hi0)
  refine ⟨pointOf (i 0).val hi0, flush0_5 _, ?_⟩
  rw [mem_blk5]
  intro a
  match a with
  | ⟨0, _⟩ =>
    show win0_5.index (pointOf (i 0).val hi0) (0 : Fin 2) * 4096 ≤ (i 0).val ∧ (i 0).val < win0_5.index (pointOf (i 0).val hi0) (0 : Fin 2) * 4096 + 4096
    rw [e0]; show (i 0).val / 4096 * 4096 ≤ (i 0).val ∧ (i 0).val < (i 0).val / 4096 * 4096 + 4096
    omega
  | ⟨1, _⟩ =>
    show win0_5.index (pointOf (i 0).val hi0) (1 : Fin 2) * 78 ≤ (i 1).val ∧ (i 1).val < win0_5.index (pointOf (i 0).val hi0) (1 : Fin 2) * 78 + 78
    rw [e1]; omega

/-- Every entry of the second result is in some point's block. -/
theorem cover6 (i : S524288x156.Idx) : ∃ t : Fin cfg0.N, (cfg0.win 6).flush t = true ∧ i ∈ ((cfg0.win 6).blk t).view.set := by
  have hi0 : (i 0).val < 524288 := (i 0).isLt
  have hi1 : (i 1).val < 156 := (i 1).isLt
  obtain ⟨-, -, -, -, -, -, -, -, -, -, -, -, e0, e1⟩ := idx_facts (pointOf (i 0).val hi0)
  refine ⟨pointOf (i 0).val hi0, flush0_6 _, ?_⟩
  rw [mem_blk6]
  intro a
  match a with
  | ⟨0, _⟩ =>
    show win0_6.index (pointOf (i 0).val hi0) (0 : Fin 2) * 4096 ≤ (i 0).val ∧ (i 0).val < win0_6.index (pointOf (i 0).val hi0) (0 : Fin 2) * 4096 + 4096
    rw [e0]; show (i 0).val / 4096 * 4096 ≤ (i 0).val ∧ (i 0).val < (i 0).val / 4096 * 4096 + 4096
    omega
  | ⟨1, _⟩ =>
    show win0_6.index (pointOf (i 0).val hi0) (1 : Fin 2) * 156 ≤ (i 1).val ∧ (i 1).val < win0_6.index (pointOf (i 0).val hi0) (1 : Fin 2) * 156 + 156
    rw [e1]; omega

end Cert.KGrid

end
-- ==== Proof.KPay.lean ====
/-
  The two values a trip computes from a chunk of 512 rows, entry by entry, on the extended reals.

  On the extended reals the narrowing casts are the identity, a reshape of a shape to itself is the identity, the matrix
  product into the zero accumulator at (p, q) is the sum over the contracted axis of the products along row p and
  column q, and a one-row matrix repeated along the rows reads its one row. So the layer-0 value of a chunk at (p, q)
  is the rectifier of the row's product with the weights' column plus the bias at q, and the layer-1 value at (p, n)
  is the rectifier of the layer-0 row's product with the second weights' column plus the second bias at n.
-/
import proofs.«106287_j49211735277649_2_alg».proof.Proof.Gen.KernelIdeal.Frame
import proofs.«106287_j49211735277649_2_alg».proof.Proof.Spec
import proofs.«106287_j49211735277649_2_alg».proof.Proof.LibPlainDot

noncomputable section

namespace Cert.KBody

open Idealize.ShloMosaic Idealize.ShloMosaic.ValueIdx Cert.KernelIdeal Cert.KernelIdeal.Gen Cert.Spec
open Cert.LibHostRead Cert.LibPlainDot

/-- The first product's dimension numbers are rows times columns. -/
theorem plain1 : PlainDot dot_S512x69_S69x78_S512x78_1_0_0_1_n_n where
  hr := rfl
  hs := rfl
  hl0 := fun _ _ => rfl
  hl1 := fun _ _ => rfl
  hr0 := fun _ _ => rfl
  hr1 := fun _ _ => rfl

/-- The second product's dimension numbers are rows times columns. -/
theorem plain2 : PlainDot dot_S512x78_S78x156_S512x156_1_0_0_1_n_n where
  hr := rfl
  hs := rfl
  hl0 := fun _ _ => rfl
  hl1 := fun _ _ => rfl
  hr0 := fun _ _ => rfl
  hr1 := fun _ _ => rfl

/-- One layer at an entry: the product of the narrowed operands into the zero accumulator, the bias row repeated along
    the rows, and the rectifier spelt as a comparison with zero and a choice between the value and the slope times it. -/
theorem layer_apply {M K N : ℕ} (d : DotDims ⟨2, ![M, K]⟩ ⟨2, ![K, N]⟩ ⟨2, ![M, N]⟩) (hd : PlainDot d)
    (a : FVec Ideal ⟨2, ![M, K]⟩ .f32) (w : FVec Ideal ⟨2, ![K, N]⟩ .f32) (b : FVec Ideal ⟨2, ![1, N]⟩ .f32)
    (hb : (⟨2, ![1, N]⟩ : Shape).Broadcasts ⟨2, ![M, N]⟩) (hc : FTy.bits .bf16 < FTy.bits .f32) (p : Fin M) (q : Fin N) :
    select
        (cmpf .oge
          (addf (matmul d none (truncf .bf16 a hc) (truncf .bf16 w hc) (constant ⟨2, ![M, N]⟩ .f32 0x00000000#32))
            (broadcastTo ⟨2, ![M, N]⟩ b hb))
          (broadcast ⟨2, ![M, N]⟩ (Scalar.ofBits (F := Ideal) .f32 0x00000000#32)))
        (addf (matmul d none (truncf .bf16 a hc) (truncf .bf16 w hc) (constant ⟨2, ![M, N]⟩ .f32 0x00000000#32))
          (broadcastTo ⟨2, ![M, N]⟩ b hb))
        (mulf (broadcast ⟨2, ![M, N]⟩ (Scalar.ofBits (F := Ideal) .f32 0x3E4CCCCD#32))
          (addf (matmul d none (truncf .bf16 a hc) (truncf .bf16 w hc) (constant ⟨2, ![M, N]⟩ .f32 0x00000000#32))
            (broadcastTo ⟨2, ![M, N]⟩ b hb)))
        (ix2 p q)
      = act ((∑ k : Fin K, a (ix2 p k) * w (ix2 k q)) + b (ix2 (0 : Fin 1) q)) := by
  have hz : addf (matmul d none (truncf .bf16 a hc) (truncf .bf16 w hc) (constant ⟨2, ![M, N]⟩ .f32 0x00000000#32))
      (broadcastTo ⟨2, ![M, N]⟩ b hb) (ix2 p q) = (∑ k : Fin K, a (ix2 p k) * w (ix2 k q)) + b (ix2 (0 : Fin 1) q) := by
    rw [addf_apply, vmatmul_apply d hd, broadcastTo_1b_ab_apply]
    rfl
  rw [select_apply, cmpf_apply, mulf_apply, broadcast_apply, broadcast_apply, hz]
  rfl

/-- The layer-0 value of a chunk at row p and column q. -/
theorem pay1_apply (v0 : FVec Ideal S69x78 .f32) (v3 : FVec Ideal S1x78 .f32) (v14 : FVec Ideal S512x69 .f32)
    (p : Fin 512) (q : Fin 78) :
    k0_pay1 (F := Ideal) v0 v3 v14 (ix2 p q)
      = act ((∑ k : Fin 69, v14 (ix2 p k) * v0 (ix2 k q)) + v3 (ix2 (0 : Fin 1) q)) := by
  unfold k0_pay1
  rw [shapeCast_self, shapeCast_self, shapeCast_self]
  exact layer_apply dot_S512x69_S69x78_S512x78_1_0_0_1_n_n plain1 v14 v0 v3 _ _ p q

/-- The layer-1 value of a chunk at row p and column n, over the layer-0 value. -/
theorem pay2_apply (v0 : FVec Ideal S69x78 .f32) (v3 : FVec Ideal S1x78 .f32) (v5 : FVec Ideal S78x156 .f32)
    (v8 : FVec Ideal S1x156 .f32) (v14 : FVec Ideal S512x69 .f32) (p : Fin 512) (n : Fin 156) :
    k0_pay2 (F := Ideal) v0 v3 v5 v8 v14 (ix2 p n)
      = act ((∑ q : Fin 78, k0_pay1 (F := Ideal) v0 v3 v14 (ix2 p q) * v5 (ix2 q n)) + v8 (ix2 (0 : Fin 1) n)) := by
  unfold k0_pay2
  rw [shapeCast_self, shapeCast_self]
  exact layer_apply dot_S512x78_S78x156_S512x156_1_0_0_1_n_n plain2 (k0_pay1 (F := Ideal) v0 v3 v14) v5 v8 _ _ p n

end Cert.KBody

end
-- ==== Proof.KTrip.lean ====
/-
  What the body's stores leave in its two output blocks, entry by entry.

  The body runs eight trips; trip k reads rows 512k .. 512k+511 of the input block and stores, at the same rows of the
  two output blocks, the layer-0 and the layer-1 values of that chunk. Each stored piece is therefore a block of ONE
  function of the output block's index: at row r the value depends on row r of the input block only, because the chunk's
  row p is the block's row 512k + p and the piece's row p lands at row 512k + p. Pieces that are blocks of one function
  leave that function wherever they cover, and the eight pieces tile the block.
-/
import proofs.«106287_j49211735277649_2_alg».proof.Proof.KPay
import Idealize.ShloMosaic.Lib.Pipeline.Value

noncomputable section

namespace Cert.KBody

open Idealize.ShloMosaic Idealize.ShloMosaic.ValueIdx Idealize.ShloMosaic.TcCoe Idealize.SL.Sem
open Cert.KernelIdeal Cert.KernelIdeal.Gen Cert.Spec

section Pieces

variable {F : FTy → Type} [FloatOps F]

theorem hz2 : (![0, 0] : Fin 2 → Nat) = fun _ => 0 := funext fun a => by fin_cases a <;> rfl

/-- One trip's piece for the first output: a store, at the trip's rows, of the layer-0 value of the rows the trip loads. -/
theorem trip_fst (𝒱 : Variants) (c : Dev nD) (bd : Option 𝒱.V) (i : grid0.Coords) (arg1 : Memref sig .tc .vmem S4096x69 .f32) (harg1 : arg1.IsWhole) (arg2 : Memref sig .tc .vmem S69x78 .f32) (harg2 : arg2.IsWhole) (arg3 : Memref sig .tc .vmem S1x78 .f32) (harg3 : arg3.IsWhole) (arg4 : Memref sig .tc .vmem S78x156 .f32) (harg4 : arg4.IsWhole) (arg5 : Memref sig .tc .vmem S1x156 .f32) (harg5 : arg5.IsWhole) (arg6 : Memref sig .tc .vmem S4096x78 .f32) (harg6 : arg6.IsWhole) (arg7 : Memref sig .tc .vmem S4096x156 .f32) (harg7 : arg7.IsWhole)
    (v0 : Vec F S69x78 .f32) (v3 : Vec F S1x78 .f32) (v5 : Vec F S78x156 .f32) (v8 : Vec F S1x156 .f32)
    (X_arg1 : BufTy.Contents (Elt F) arg1.view.ty) (k : Fin k0_t1_loop.trips) :
    (trip_k0_t1 (F := F) 𝒱 c bd i arg1 harg1 arg2 harg2 arg3 harg3 arg4 harg4 arg5 harg5 arg6 harg6 arg7 harg7 v0 v3 v5 v8 X_arg1 k).1
      = [(⟨Rect.unit (s := S4096x78) (k0_off2 k) S512x78.size (k0_off2_inb k),
            k0_pay1 v0 v3 (View.readAt (Elt F) arg1.view (Rect.unit (s := S4096x69) (k0_off1 k) S512x69.size (k0_off1_inb k)).toLoadRect X_arg1)⟩ :
          View.Piece (Elt F) S4096x78 .f32)] := by
  unfold trip_k0_t1
  rfl

/-- One trip's piece for the second output: a store, at the trip's rows, of the layer-1 value of the rows the trip loads. -/
theorem trip_snd (𝒱 : Variants) (c : Dev nD) (bd : Option 𝒱.V) (i : grid0.Coords) (arg1 : Memref sig .tc .vmem S4096x69 .f32) (harg1 : arg1.IsWhole) (arg2 : Memref sig .tc .vmem S69x78 .f32) (harg2 : arg2.IsWhole) (arg3 : Memref sig .tc .vmem S1x78 .f32) (harg3 : arg3.IsWhole) (arg4 : Memref sig .tc .vmem S78x156 .f32) (harg4 : arg4.IsWhole) (arg5 : Memref sig .tc .vmem S1x156 .f32) (harg5 : arg5.IsWhole) (arg6 : Memref sig .tc .vmem S4096x78 .f32) (harg6 : arg6.IsWhole) (arg7 : Memref sig .tc .vmem S4096x156 .f32) (harg7 : arg7.IsWhole)
    (v0 : Vec F S69x78 .f32) (v3 : Vec F S1x78 .f32) (v5 : Vec F S78x156 .f32) (v8 : Vec F S1x156 .f32)
    (X_arg1 : BufTy.Contents (Elt F) arg1.view.ty) (k : Fin k0_t1_loop.trips) :
    (trip_k0_t1 (F := F) 𝒱 c bd i arg1 harg1 arg2 harg2 arg3 harg3 arg4 harg4 arg5 harg5 arg6 harg6 arg7 harg7 v0 v3 v5 v8 X_arg1 k).2.1
      = [(⟨Rect.unit (s := S4096x156) (k0_off3 k) S512x156.size (k0_off3_inb k),
            k0_pay2 v0 v3 v5 v8 (View.readAt (Elt F) arg1.view (Rect.unit (s := S4096x69) (k0_off1 k) S512x69.size (k0_off1_inb k)).toLoadRect X_arg1)⟩ :
          View.Piece (Elt F) S4096x156 .f32)] := by
  unfold trip_k0_t1
  rfl

/-- The whole run's pieces are the pieces of all the trips, over the weight blocks and the input block as they are. -/
theorem run_pieces (c : Dev nD) (i : grid0.Coords) (arg1 : Memref sig .tc .vmem S4096x69 .f32) (harg1 : arg1.IsWhole) (arg2 : Memref sig .tc .vmem S69x78 .f32) (harg2 : arg2.IsWhole) (arg3 : Memref sig .tc .vmem S1x78 .f32) (harg3 : arg3.IsWhole) (arg4 : Memref sig .tc .vmem S78x156 .f32) (harg4 : arg4.IsWhole) (arg5 : Memref sig .tc .vmem S1x156 .f32) (harg5 : arg5.IsWhole) (arg6 : Memref sig .tc .vmem S4096x78 .f32) (harg6 : arg6.IsWhole) (arg7 : Memref sig .tc .vmem S4096x156 .f32) (harg7 : arg7.IsWhole)
    (x0 : Vec F S4096x69 .f32) (x1 : Vec F S69x78 .f32) (x2 : Vec F S1x78 .f32) (x3 : Vec F S78x156 .f32) (x4 : Vec F S1x156 .f32) :
    (kernelRun0_A c i arg1 harg1 arg2 harg2 arg3 harg3 arg4 harg4 arg5 harg5 arg6 harg6 arg7 harg7 x0 x1 x2 x3 x4).1
        = (pb_k0_t1 (F := F) Variants.none c none i arg1 harg1 arg2 harg2 arg3 harg3 arg4 harg4 arg5 harg5 arg6 harg6 arg7 harg7 x1 x2 x3 x4 (harg1.unread x0) k0_t1_loop.trips).1
      ∧ (kernelRun0_A c i arg1 harg1 arg2 harg2 arg3 harg3 arg4 harg4 arg5 harg5 arg6 harg6 arg7 harg7 x0 x1 x2 x3 x4).2.1
        = (pb_k0_t1 (F := F) Variants.none c none i arg1 harg1 arg2 harg2 arg3 harg3 arg4 harg4 arg5 harg5 arg6 harg6 arg7 harg7 x1 x2 x3 x4 (harg1.unread x0) k0_t1_loop.trips).2 := by
  have h1 : View.readAt (Elt F) arg2.view (Rect.unit (s := S69x78) ![0, 0] S69x78.size inb_S69x78_S69x78_0_0).toLoadRect (harg2.unread x1) = x1 := by
    rw [View.readAt_eq_ld, harg2.read_unread, View.ld_unit_zero hz2]
  have h2 : View.readAt (Elt F) arg3.view (Rect.unit (s := S1x78) ![0, 0] S1x78.size inb_S1x78_S1x78_0_0).toLoadRect (harg3.unread x2) = x2 := by
    rw [View.readAt_eq_ld, harg3.read_unread, View.ld_unit_zero hz2]
  have h3 : View.readAt (Elt F) arg4.view (Rect.unit (s := S78x156) ![0, 0] S78x156.size inb_S78x156_S78x156_0_0).toLoadRect (harg4.unread x3) = x3 := by
    rw [View.readAt_eq_ld, harg4.read_unread, View.ld_unit_zero hz2]
  have h4 : View.readAt (Elt F) arg5.view (Rect.unit (s := S1x156) ![0, 0] S1x156.size inb_S1x156_S1x156_0_0).toLoadRect (harg5.unread x4) = x4 := by
    rw [View.readAt_eq_ld, harg5.read_unread, View.ld_unit_zero hz2]
  unfold kernelRun0_A
  dsimp only
  rw [h1, h2, h3, h4]
  exact ⟨rfl, rfl⟩

end Pieces

section Values

/-- The first output's entry at row r and column q, as a function of the input block and the first layer's weights and bias. -/
def g5 (x0 : S4096x69.Idx → EReal) (x1 : S69x78.Idx → EReal) (x2 : S1x78.Idx → EReal) (r : Fin 4096) (q : Fin 78) : EReal :=
  act ((∑ k : Fin 69, x0 (ix2 r k) * x1 (ix2 k q)) + x2 (ix2 (0 : Fin 1) q))

/-- The second output's entry at row r and column n, over the first output's row r. -/
def g6 (x0 : S4096x69.Idx → EReal) (x1 : S69x78.Idx → EReal) (x2 : S1x78.Idx → EReal) (x3 : S78x156.Idx → EReal)
    (x4 : S1x156.Idx → EReal) (r : Fin 4096) (n : Fin 156) : EReal :=
  act ((∑ q : Fin 78, g5 x0 x1 x2 r q * x3 (ix2 q n)) + x4 (ix2 (0 : Fin 1) n))

/-- Row p of the chunk trip k loads is row 512k + p of the block, the row at which the trip's stores put their row p:
    the load's index at (p, j) is (the landing row of (p, b), j), for a store of either width. -/
theorem load_row78 (k : Fin k0_t1_loop.trips) (a : Fin 512) (b : Fin 78) (j : Fin 69) :
    (Rect.unit (s := S4096x69) (k0_off1 k) S512x69.size (k0_off1_inb k)).toLoadRect.idx (ix2 a j) = ix2 ((Rect.unit (s := S4096x78) (k0_off2 k) S512x78.size (k0_off2_inb k)).emb (ix2 a b) 0) j := by
  have e1 := k0_off1_eq k
  have e2 := k0_off2_eq k
  funext ax
  apply Fin.ext
  match ax with
  | ⟨0, _⟩ =>
    show k0_off1 k 0 + 1 * a.val = k0_off2 k 0 + 1 * a.val
    rw [e1, e2]
  | ⟨1, _⟩ =>
    show k0_off1 k 1 + 1 * j.val = j.val
    rw [e1]
    show 0 + 1 * j.val = j.val
    omega

theorem load_row156 (k : Fin k0_t1_loop.trips) (a : Fin 512) (b : Fin 156) (j : Fin 69) :
    (Rect.unit (s := S4096x69) (k0_off1 k) S512x69.size (k0_off1_inb k)).toLoadRect.idx (ix2 a j) = ix2 ((Rect.unit (s := S4096x156) (k0_off3 k) S512x156.size (k0_off3_inb k)).emb (ix2 a b) 0) j := by
  have e1 := k0_off1_eq k
  have e3 := k0_off3_eq k
  funext ax
  apply Fin.ext
  match ax with
  | ⟨0, _⟩ =>
    show k0_off1 k 0 + 1 * a.val = k0_off3 k 0 + 1 * a.val
    rw [e1, e3]
  | ⟨1, _⟩ =>
    show k0_off1 k 1 + 1 * j.val = j.val
    rw [e1]
    show 0 + 1 * j.val = j.val
    omega

/-- A store's column b lands at column b. -/
theorem land_col78 (k : Fin k0_t1_loop.trips) (a : Fin 512) (b : Fin 78) : (Rect.unit (s := S4096x78) (k0_off2 k) S512x78.size (k0_off2_inb k)).emb (ix2 a b) 1 = b := by
  have e2 := k0_off2_eq k
  apply Fin.ext
  show k0_off2 k 1 + 1 * b.val = b.val
  rw [e2]
  show 0 + 1 * b.val = b.val
  omega

theorem land_col156 (k : Fin k0_t1_loop.trips) (a : Fin 512) (b : Fin 156) : (Rect.unit (s := S4096x156) (k0_off3 k) S512x156.size (k0_off3_inb k)).emb (ix2 a b) 1 = b := by
  have e3 := k0_off3_eq k
  apply Fin.ext
  show k0_off3 k 1 + 1 * b.val = b.val
  rw [e3]
  show 0 + 1 * b.val = b.val
  omega

/-- The layer-0 value of the chunk trip k loads, at (a, b), is the first output's function at the landing row of (a, ·). -/
theorem chunk5 (X : S4096x69.Idx → EReal) (v0 : FVec Ideal S69x78 .f32) (v3 : FVec Ideal S1x78 .f32)
    (k : Fin k0_t1_loop.trips) (a : Fin 512) (b : Fin 78) (r : Fin 4096)
    (hr : ∀ j : Fin 69, (Rect.unit (s := S4096x69) (k0_off1 k) S512x69.size (k0_off1_inb k)).toLoadRect.idx (ix2 a j) = ix2 r j) :
    k0_pay1 (F := Ideal) v0 v3 (fun x => X ((Rect.unit (s := S4096x69) (k0_off1 k) S512x69.size (k0_off1_inb k)).toLoadRect.idx x)) (ix2 a b) = g5 X v0 v3 r b := by
  refine (pay1_apply v0 v3 _ a b).trans ?_
  show act ((∑ j : Fin 69, X ((Rect.unit (s := S4096x69) (k0_off1 k) S512x69.size (k0_off1_inb k)).toLoadRect.idx (ix2 a j)) * v0 (ix2 j b)) + v3 (ix2 (0 : Fin 1) b)) = _
  simp only [hr]
  rfl

/-- The layer-1 value of the chunk trip k loads, at (a, b), is the second output's function at the landing row of (a, ·). -/
theorem chunk6 (X : S4096x69.Idx → EReal) (v0 : FVec Ideal S69x78 .f32) (v3 : FVec Ideal S1x78 .f32) (v5 : FVec Ideal S78x156 .f32) (v8 : FVec Ideal S1x156 .f32)
    (k : Fin k0_t1_loop.trips) (a : Fin 512) (b : Fin 156) (r : Fin 4096)
    (hr : ∀ j : Fin 69, (Rect.unit (s := S4096x69) (k0_off1 k) S512x69.size (k0_off1_inb k)).toLoadRect.idx (ix2 a j) = ix2 r j) :
    k0_pay2 (F := Ideal) v0 v3 v5 v8 (fun x => X ((Rect.unit (s := S4096x69) (k0_off1 k) S512x69.size (k0_off1_inb k)).toLoadRect.idx x)) (ix2 a b) = g6 X v0 v3 v5 v8 r b := by
  refine (pay2_apply v0 v3 v5 v8 _ a b).trans ?_
  simp only [fun q : Fin 78 => chunk5 X v0 v3 k a q r hr]
  rfl

/-- Every piece of the trips before n, for the first output, is a block of the first output's function. -/
theorem agree5 (c : Dev nD) (i : grid0.Coords) (arg1 : Memref sig .tc .vmem S4096x69 .f32) (harg1 : arg1.IsWhole) (arg2 : Memref sig .tc .vmem S69x78 .f32) (harg2 : arg2.IsWhole) (arg3 : Memref sig .tc .vmem S1x78 .f32) (harg3 : arg3.IsWhole) (arg4 : Memref sig .tc .vmem S78x156 .f32) (harg4 : arg4.IsWhole) (arg5 : Memref sig .tc .vmem S1x156 .f32) (harg5 : arg5.IsWhole) (arg6 : Memref sig .tc .vmem S4096x78 .f32) (harg6 : arg6.IsWhole) (arg7 : Memref sig .tc .vmem S4096x156 .f32) (harg7 : arg7.IsWhole) (v0 : FVec Ideal S69x78 .f32) (v3 : FVec Ideal S1x78 .f32) (v5 : FVec Ideal S78x156 .f32) (v8 : FVec Ideal S1x156 .f32)
    (X : BufTy.Contents (Elt Ideal) arg1.view.ty) :
    ∀ n : ℕ, n ≤ k0_t1_loop.trips → ∀ p ∈ (pb_k0_t1 (F := Ideal) Variants.none c none i arg1 harg1 arg2 harg2 arg3 harg3 arg4 harg4 arg5 harg5 arg6 harg6 arg7 harg7 v0 v3 v5 v8 X n).1,
      ∀ x : p.1.shape.Idx, p.2 x = arr2 (g5 (arg1.view.read (Elt Ideal) X) v0 v3) (p.1.emb x)
  | 0, _, p, hp, _ => by
    rw [pb_k0_t1.eq_1] at hp
    exact absurd hp List.not_mem_nil
  | n + 1, hn, p, hp, x => by
    have hlt : n < k0_t1_loop.trips := hn
    have hs := congrArg Prod.fst (pb_k0_t1_succ (F := Ideal) Variants.none c none i arg1 harg1 arg2 harg2 arg3 harg3 arg4 harg4 arg5 harg5 arg6 harg6 arg7 harg7 v0 v3 v5 v8 X (⟨n, hlt⟩ : Fin k0_t1_loop.trips))
    rw [show (pb_k0_t1 (F := Ideal) Variants.none c none i arg1 harg1 arg2 harg2 arg3 harg3 arg4 harg4 arg5 harg5 arg6 harg6 arg7 harg7 v0 v3 v5 v8 X (n + 1)).1
        = (trip_k0_t1 (F := Ideal) Variants.none c none i arg1 harg1 arg2 harg2 arg3 harg3 arg4 harg4 arg5 harg5 arg6 harg6 arg7 harg7 v0 v3 v5 v8 X (⟨n, hlt⟩ : Fin k0_t1_loop.trips)).1
          ++ (pb_k0_t1 (F := Ideal) Variants.none c none i arg1 harg1 arg2 harg2 arg3 harg3 arg4 harg4 arg5 harg5 arg6 harg6 arg7 harg7 v0 v3 v5 v8 X n).1 from hs,
      trip_fst, List.singleton_append, List.mem_cons] at hp
    rcases hp with rfl | hp
    · obtain ⟨a, b, rfl⟩ : ∃ (a : Fin 512) (b : Fin 78), x = ix2 a b := ⟨x 0, x 1, eq_ix2 x⟩
      exact (chunk5 (arg1.view.read (Elt Ideal) X) v0 v3 (⟨n, hlt⟩ : Fin k0_t1_loop.trips) a b _ (load_row78 (⟨n, hlt⟩ : Fin k0_t1_loop.trips) a b)).trans
        (congrArg (g5 (arg1.view.read (Elt Ideal) X) v0 v3 _) (land_col78 (⟨n, hlt⟩ : Fin k0_t1_loop.trips) a b).symm)
    · exact agree5 c i arg1 harg1 arg2 harg2 arg3 harg3 arg4 harg4 arg5 harg5 arg6 harg6 arg7 harg7 v0 v3 v5 v8 X n (Nat.le_of_succ_le hn) p hp x

/-- Every piece of the trips before n, for the second output, is a block of the second output's function. -/
theorem agree6 (c : Dev nD) (i : grid0.Coords) (arg1 : Memref sig .tc .vmem S4096x69 .f32) (harg1 : arg1.IsWhole) (arg2 : Memref sig .tc .vmem S69x78 .f32) (harg2 : arg2.IsWhole) (arg3 : Memref sig .tc .vmem S1x78 .f32) (harg3 : arg3.IsWhole) (arg4 : Memref sig .tc .vmem S78x156 .f32) (harg4 : arg4.IsWhole) (arg5 : Memref sig .tc .vmem S1x156 .f32) (harg5 : arg5.IsWhole) (arg6 : Memref sig .tc .vmem S4096x78 .f32) (harg6 : arg6.IsWhole) (arg7 : Memref sig .tc .vmem S4096x156 .f32) (harg7 : arg7.IsWhole) (v0 : FVec Ideal S69x78 .f32) (v3 : FVec Ideal S1x78 .f32) (v5 : FVec Ideal S78x156 .f32) (v8 : FVec Ideal S1x156 .f32)
    (X : BufTy.Contents (Elt Ideal) arg1.view.ty) :
    ∀ n : ℕ, n ≤ k0_t1_loop.trips → ∀ p ∈ (pb_k0_t1 (F := Ideal) Variants.none c none i arg1 harg1 arg2 harg2 arg3 harg3 arg4 harg4 arg5 harg5 arg6 harg6 arg7 harg7 v0 v3 v5 v8 X n).2,
      ∀ x : p.1.shape.Idx, p.2 x = arr2 (g6 (arg1.view.read (Elt Ideal) X) v0 v3 v5 v8) (p.1.emb x)
  | 0, _, p, hp, _ => by
    rw [pb_k0_t1.eq_1] at hp
    exact absurd hp List.not_mem_nil
  | n + 1, hn, p, hp, x => by
    have hlt : n < k0_t1_loop.trips := hn
    have hs := congrArg Prod.snd (pb_k0_t1_succ (F := Ideal) Variants.none c none i arg1 harg1 arg2 harg2 arg3 harg3 arg4 harg4 arg5 harg5 arg6 harg6 arg7 harg7 v0 v3 v5 v8 X (⟨n, hlt⟩ : Fin k0_t1_loop.trips))
    rw [show (pb_k0_t1 (F := Ideal) Variants.none c none i arg1 harg1 arg2 harg2 arg3 harg3 arg4 harg4 arg5 harg5 arg6 harg6 arg7 harg7 v0 v3 v5 v8 X (n + 1)).2
        = (trip_k0_t1 (F := Ideal) Variants.none c none i arg1 harg1 arg2 harg2 arg3 harg3 arg4 harg4 arg5 harg5 arg6 harg6 arg7 harg7 v0 v3 v5 v8 X (⟨n, hlt⟩ : Fin k0_t1_loop.trips)).2.1
          ++ (pb_k0_t1 (F := Ideal) Variants.none c none i arg1 harg1 arg2 harg2 arg3 harg3 arg4 harg4 arg5 harg5 arg6 harg6 arg7 harg7 v0 v3 v5 v8 X n).2 from hs,
      trip_snd, List.singleton_append, List.mem_cons] at hp
    rcases hp with rfl | hp
    · obtain ⟨a, b, rfl⟩ : ∃ (a : Fin 512) (b : Fin 156), x = ix2 a b := ⟨x 0, x 1, eq_ix2 x⟩
      exact (chunk6 (arg1.view.read (Elt Ideal) X) v0 v3 v5 v8 (⟨n, hlt⟩ : Fin k0_t1_loop.trips) a b _ (load_row156 (⟨n, hlt⟩ : Fin k0_t1_loop.trips) a b)).trans
        (congrArg (g6 (arg1.view.read (Elt Ideal) X) v0 v3 v5 v8 _) (land_col156 (⟨n, hlt⟩ : Fin k0_t1_loop.trips) a b).symm)
    · exact agree6 c i arg1 harg1 arg2 harg2 arg3 harg3 arg4 harg4 arg5 harg5 arg6 harg6 arg7 harg7 v0 v3 v5 v8 X n (Nat.le_of_succ_le hn) p hp x

/-- What the body leaves in the first output block, at row r and column q. -/
theorem out5_apply (c : Dev nD) (i : grid0.Coords) (arg1 : Memref sig .tc .vmem S4096x69 .f32) (harg1 : arg1.IsWhole) (arg2 : Memref sig .tc .vmem S69x78 .f32) (harg2 : arg2.IsWhole) (arg3 : Memref sig .tc .vmem S1x78 .f32) (harg3 : arg3.IsWhole) (arg4 : Memref sig .tc .vmem S78x156 .f32) (harg4 : arg4.IsWhole) (arg5 : Memref sig .tc .vmem S1x156 .f32) (harg5 : arg5.IsWhole) (arg6 : Memref sig .tc .vmem S4096x78 .f32) (harg6 : arg6.IsWhole) (arg7 : Memref sig .tc .vmem S4096x156 .f32) (harg7 : arg7.IsWhole)
    (x0 : Vec Ideal S4096x69 .f32) (x1 : Vec Ideal S69x78 .f32) (x2 : Vec Ideal S1x78 .f32) (x3 : Vec Ideal S78x156 .f32) (x4 : Vec Ideal S1x156 .f32) (r : Fin 4096) (q : Fin 78) :
    out0_A_5 (F := Ideal) c i arg1 harg1 arg2 harg2 arg3 harg3 arg4 harg4 arg5 harg5 arg6 harg6 arg7 harg7 x0 x1 x2 x3 x4 (ix2 r q)
      = act ((∑ k : Fin 69, x0 (ix2 r k) * x1 (ix2 k q)) + x2 (ix2 (0 : Fin 1) q)) := by
  unfold out0_A_5
  rw [View.read_writes_junk_apply_eq_canon]
  refine (View.canon_apply_of_pieces (arr2 (g5 x0 x1 x2)) _ ?_ (ix2 r q)
    (cover0_A_5 c i arg1 harg1 arg2 harg2 arg3 harg3 arg4 harg4 arg5 harg5 arg6 harg6 arg7 harg7 x0 x1 x2 x3 x4 (ix2 r q))).trans rfl
  rw [(run_pieces c i arg1 harg1 arg2 harg2 arg3 harg3 arg4 harg4 arg5 harg5 arg6 harg6 arg7 harg7 x0 x1 x2 x3 x4).1]
  have h := agree5 c i arg1 harg1 arg2 harg2 arg3 harg3 arg4 harg4 arg5 harg5 arg6 harg6 arg7 harg7 x1 x2 x3 x4 (harg1.unread x0) _ (Nat.le_refl _)
  rwa [harg1.read_unread] at h

/-- What the body leaves in the second output block, at row r and column n. -/
theorem out6_apply (c : Dev nD) (i : grid0.Coords) (arg1 : Memref sig .tc .vmem S4096x69 .f32) (harg1 : arg1.IsWhole) (arg2 : Memref sig .tc .vmem S69x78 .f32) (harg2 : arg2.IsWhole) (arg3 : Memref sig .tc .vmem S1x78 .f32) (harg3 : arg3.IsWhole) (arg4 : Memref sig .tc .vmem S78x156 .f32) (harg4 : arg4.IsWhole) (arg5 : Memref sig .tc .vmem S1x156 .f32) (harg5 : arg5.IsWhole) (arg6 : Memref sig .tc .vmem S4096x78 .f32) (harg6 : arg6.IsWhole) (arg7 : Memref sig .tc .vmem S4096x156 .f32) (harg7 : arg7.IsWhole)
    (x0 : Vec Ideal S4096x69 .f32) (x1 : Vec Ideal S69x78 .f32) (x2 : Vec Ideal S1x78 .f32) (x3 : Vec Ideal S78x156 .f32) (x4 : Vec Ideal S1x156 .f32) (r : Fin 4096) (n : Fin 156) :
    out0_A_6 (F := Ideal) c i arg1 harg1 arg2 harg2 arg3 harg3 arg4 harg4 arg5 harg5 arg6 harg6 arg7 harg7 x0 x1 x2 x3 x4 (ix2 r n)
      = act ((∑ q : Fin 78, act ((∑ k : Fin 69, x0 (ix2 r k) * x1 (ix2 k q)) + x2 (ix2 (0 : Fin 1) q)) * x3 (ix2 q n))
          + x4 (ix2 (0 : Fin 1) n)) := by
  unfold out0_A_6
  rw [View.read_writes_junk_apply_eq_canon]
  refine (View.canon_apply_of_pieces (arr2 (g6 x0 x1 x2 x3 x4)) _ ?_ (ix2 r n)
    (cover0_A_6 c i arg1 harg1 arg2 harg2 arg3 harg3 arg4 harg4 arg5 harg5 arg6 harg6 arg7 harg7 x0 x1 x2 x3 x4 (ix2 r n))).trans rfl
  rw [(run_pieces c i arg1 harg1 arg2 harg2 arg3 harg3 arg4 harg4 arg5 harg5 arg6 harg6 arg7 harg7 x0 x1 x2 x3 x4).2]
  have h := agree6 c i arg1 harg1 arg2 harg2 arg3 harg3 arg4 harg4 arg5 harg5 arg6 harg6 arg7 harg7 x1 x2 x3 x4 (harg1.unread x0) _ (Nat.le_refl _)
  rwa [harg1.read_unread] at h

end Values

end Cert.KBody

end
-- ==== Proof.KBlocks.lean ====
/-
  The kernel's two result arrays after the run, as functions of the argument arrays.

  At point t the body leaves, in row r of its first output block, the rectified pooled layer 0 of row r of its x block,
  and in the second the rectified layer 1 of that. The x block's row r is row 4096 t + r of x and the weight blocks are the
  whole pooled and masked weights, so what point t writes back is block t of ONE function of the argument arrays; the
  blocks cover the results, so the results are that function.
-/
import proofs.«106287_j49211735277649_2_alg».proof.Proof.Gen.KernelIdeal.Value
import proofs.«106287_j49211735277649_2_alg».proof.Proof.Spec
import proofs.«106287_j49211735277649_2_alg».proof.Proof.KHost
import proofs.«106287_j49211735277649_2_alg».proof.Proof.KGrid
import proofs.«106287_j49211735277649_2_alg».proof.Proof.KTrip
import Idealize.ShloMosaic.Lib.Pipeline.Value
import Idealize.ShloMosaic.Lib.ValueIdx

noncomputable section

namespace Cert.KBlocks

open Cert.KernelIdeal Cert.KernelIdeal.Gen Idealize.ShloMosaic Idealize.ShloMosaic.TcCoe Idealize.SL.Sem
open Idealize.ShloMosaic.Pipeline (Dat)
open Idealize.ShloMosaic.ValueIdx Cert.Spec Cert.KHost Cert.KGrid

/-- Layer 0 of one row, over any blocks: if row `r` of the x block is row `R` of x and the weight and bias blocks are the
    pooled weights and bias, the rectified sum is the kernel's layer-0 entry of row `R`. -/
theorem layer0_of_blocks (x0 : Vec Ideal S4096x69 .f32) (x1 : Vec Ideal S69x78 .f32) (x2 : Vec Ideal S1x78 .f32)
    (X : SX.Idx → EReal) (W1 : SW1.Idx → EReal) (B1 : SB1.Idx → EReal) (M1 : SW1.Idx → EReal) (P : SPool.Idx → EReal)
    (R : Fin 524288) (r : Fin 4096) (q : Fin 78)
    (h0 : ∀ k : Fin 69, @Eq EReal (x0 (ix2 r k)) (X (ix3 R k (0 : Fin 1))))
    (h1 : ∀ k : Fin 69, @Eq EReal (x1 (ix2 k q)) (wc W1 M1 P k q))
    (h2 : @Eq EReal (x2 (ix2 (0 : Fin 1) q)) (bc B1 P q)) :
    act ((∑ k : Fin 69, (x0 (ix2 r k) : EReal) * (x1 (ix2 k q) : EReal)) + (x2 (ix2 (0 : Fin 1) q) : EReal))
      = act (preK X W1 B1 M1 P R q) := by
  unfold preK
  rw [h2, Finset.sum_congr rfl fun k _ => show (x0 (ix2 r k) : EReal) * (x1 (ix2 k q) : EReal) = X (ix3 R k (0 : Fin 1)) * wc W1 M1 P k q by rw [h0 k, h1 k]]

/-- Layer 1 of one row, over any blocks. -/
theorem layer1_of_blocks (x0 : Vec Ideal S4096x69 .f32) (x1 : Vec Ideal S69x78 .f32) (x2 : Vec Ideal S1x78 .f32)
    (x3 : Vec Ideal S78x156 .f32) (x4 : Vec Ideal S1x156 .f32)
    (X : SX.Idx → EReal) (W1 : SW1.Idx → EReal) (B1 : SB1.Idx → EReal) (M1 : SW1.Idx → EReal) (P : SPool.Idx → EReal)
    (W2 : SW2.Idx → EReal) (B2 : SB2.Idx → EReal) (M2 : SW2.Idx → EReal)
    (R : Fin 524288) (r : Fin 4096) (n : Fin 156)
    (h0 : ∀ k : Fin 69, @Eq EReal (x0 (ix2 r k)) (X (ix3 R k (0 : Fin 1))))
    (h1 : ∀ (k : Fin 69) (q : Fin 78), @Eq EReal (x1 (ix2 k q)) (wc W1 M1 P k q))
    (h2 : ∀ q : Fin 78, @Eq EReal (x2 (ix2 (0 : Fin 1) q)) (bc B1 P q))
    (h3 : ∀ q : Fin 78, @Eq EReal (x3 (ix2 q n)) (wm2 W2 M2 n q))
    (h4 : @Eq EReal (x4 (ix2 (0 : Fin 1) n)) (B2 (ix1 n))) :
    act ((∑ q : Fin 78, act ((∑ k : Fin 69, (x0 (ix2 r k) : EReal) * (x1 (ix2 k q) : EReal)) + (x2 (ix2 (0 : Fin 1) q) : EReal)) * (x3 (ix2 q n) : EReal)) + (x4 (ix2 (0 : Fin 1) n) : EReal))
      = layer1 (fun r q => act (preK X W1 B1 M1 P r q)) W2 B2 M2 R n := by
  unfold layer1
  rw [h4, Finset.sum_congr rfl fun q _ => show act ((∑ k : Fin 69, (x0 (ix2 r k) : EReal) * (x1 (ix2 k q) : EReal)) + (x2 (ix2 (0 : Fin 1) q) : EReal)) * (x3 (ix2 q n) : EReal)
      = act (preK X W1 B1 M1 P R q) * wm2 W2 M2 n q by
    rw [h3 q, layer0_of_blocks x0 x1 x2 X W1 B1 M1 P R r q h0 (fun k => h1 k q) (h2 q)]]

variable (m : (ℓ : Loc nD τ sig) → Buf (Elt Ideal) ℓ) (ρ : Dev nD → PrngReg)

/-- The kernel's layer-0 result, row by row: the rectifier of the pooled-weights-first pre-activation. -/
def a1K (c : Dev nD) : Fin 524288 → Fin 78 → EReal :=
  fun r q => act (preK (aX m c) (aW1 m c) (aB1 m c) (aM1 m c) (aP m c) r q)

/-- The two result arrays. -/
def A1 (c : Dev nD) : S524288x78.Idx → EReal := arr2 (a1K m c)
def A2 (c : Dev nD) : S524288x156.Idx → EReal := arr2 (layer1 (a1K m c) (aW2 m c) (aB2 m c) (aM2 m c))

/-- Row `r` of what the body leaves in the first output block at point `t` is row `4096 t + r` of `A1`. -/
theorem point5 (c : Dev nD) (t : Fin cfg0.N) (r : Fin 4096) (q : Fin 78) :
    @Eq EReal (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (ix2 r q)) (a1K m c (row t r) q) :=
  (Cert.KBody.out5_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) r q).trans
    (layer0_of_blocks (iblk m c 0 t) (iblk m c 1 t) (iblk m c 2 t) (aX m c) (aW1 m c) (aB1 m c) (aM1 m c) (aP m c) (row t r) r q
      (fun k => iblk0_apply m c t r k) (fun k => iblk1_apply m c t k q) (iblk2_apply m c t q))

/-- … and of the second, row `4096 t + r` of `A2`. -/
theorem point6 (c : Dev nD) (t : Fin cfg0.N) (r : Fin 4096) (n : Fin 156) :
    @Eq EReal (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (ix2 r n)) (layer1 (a1K m c) (aW2 m c) (aB2 m c) (aM2 m c) (row t r) n) :=
  (Cert.KBody.out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) r n).trans
    (layer1_of_blocks (iblk m c 0 t) (iblk m c 1 t) (iblk m c 2 t) (iblk m c 3 t) (iblk m c 4 t)
      (aX m c) (aW1 m c) (aB1 m c) (aM1 m c) (aP m c) (aW2 m c) (aB2 m c) (aM2 m c) (row t r) r n
      (fun k => iblk0_apply m c t r k) (fun k q => iblk1_apply m c t k q) (fun q => iblk2_apply m c t q)
      (fun q => iblk3_apply m c t q n) (iblk4_apply m c t n))

/-- What point `t` writes back to the first result is block `t` of `A1`. -/
theorem flushed5_eq (c : Dev nD) (t : Fin cfg0.N) :
    (dats m 0 c).flushed 5 t = ((cfg0.win 5).blk t).view.read (Elt Ideal) (A1 m c) := by
  rw [Cert.KernelIdeal.Value.flushed5_A]
  obtain ⟨-, -, -, -, -, -, -, -, -, -, e0, e1, -⟩ := idx_facts t
  funext y
  have hemb : ((cfg0.win 5).blk t).view.emb y = ix2 (row t (y 0)) (y 1) := by
    funext a; apply Fin.ext
    match a with
    | ⟨0, _⟩ => show win0_5.index t (0 : Fin 2) * 4096 + 1 * (y 0).val = t.val * 4096 + (y 0).val; omega
    | ⟨1, _⟩ => show win0_5.index t (1 : Fin 2) * 78 + 1 * (y 1).val = (y 1).val; omega
  show @Eq EReal (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) y) (A1 m c (((cfg0.win 5).blk t).view.emb y))
  rw [hemb, eq_ix2 y]
  exact point5 m c t (y 0) (y 1)

/-- What point `t` writes back to the second result is block `t` of `A2`. -/
theorem flushed6_eq (c : Dev nD) (t : Fin cfg0.N) :
    (dats m 0 c).flushed 6 t = ((cfg0.win 6).blk t).view.read (Elt Ideal) (A2 m c) := by
  rw [Cert.KernelIdeal.Value.flushed6_A]
  obtain ⟨-, -, -, -, -, -, -, -, -, -, -, -, e0, e1⟩ := idx_facts t
  funext y
  have hemb : ((cfg0.win 6).blk t).view.emb y = ix2 (row t (y 0)) (y 1) := by
    funext a; apply Fin.ext
    match a with
    | ⟨0, _⟩ => show win0_6.index t (0 : Fin 2) * 4096 + 1 * (y 0).val = t.val * 4096 + (y 0).val; omega
    | ⟨1, _⟩ => show win0_6.index t (1 : Fin 2) * 156 + 1 * (y 1).val = (y 1).val; omega
  show @Eq EReal (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) y) (A2 m c (((cfg0.win 6).blk t).view.emb y))
  rw [hemb, eq_ix2 y]
  exact point6 m c t (y 0) (y 1)

/-- The result arrays after the run. -/
theorem final5 (c : Dev nD) : (dats m 0 c).arrAt 5 cfg0.N = A1 m c :=
  (dats m 0 c).arrAt_eq_of_cover 5 (A1 m c) (fun t _ => flushed5_eq m c t) cover5
theorem final6 (c : Dev nD) : (dats m 0 c).arrAt 6 cfg0.N = A2 m c :=
  (dats m 0 c).arrAt_eq_of_cover 6 (A2 m c) (fun t _ => flushed6_eq m c t) cover6

/-- The kernel's run: every execution ends with the two results at `A1` and `A2` of the arguments, the arguments unchanged. -/
theorem run : θ_run defs (onTc (τ := τ) (main (F := Ideal))) ⟨m, fun _ => 0, ρ⟩ fun r => ∀ c : Dev nD,
      r.2.mem ((c : Thread nD τ).loc main_v10_0) = A1 m c
      ∧ r.2.mem ((c : Thread nD τ).loc main_v10_1) = A2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final5 m c), (h c).2.1.trans (final6 m c), (h c).2.2⟩)
    (Cert.KernelIdeal.Value.run_blocks m ρ)

end Cert.KBlocks

end
-- ==== Proof.RefRun.lean ====
/-
  The reference function as one straight line of tensor operations, and what it leaves in memory.

  The reference calls the leaky rectifier twice, and the rectifier calls the element-wise choice. A call executes the
  callee's body on the caller's operands, so the whole function is a single line of thirty-two operations: ten for
  layer 0 up to the slope constant, seven for the first rectifier (the zero, its spread over the array, the comparison,
  the slope converted and spread, the product with the slope, the choice), eight for layer 1 up to its slope constant,
  and seven for the second rectifier. Every weakly fair execution runs the line to its end; each buffer then holds the
  fold of the operations' results over the initial contents.
-/
import proofs.«106287_j49211735277649_2_alg».proof.Proof.Gen.ReferenceIdeal
import Idealize.ShloMosaic.Lib.StableHlo.Run

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The thirty-two operations in order, the two rectifier calls and the choice inside each written out over the
    buffers of that call. -/
abbrev ops : List (HloOp τ sig (Elt F)) :=
  [ reshape main_arg0 main_v0 rfl shapeCasts_S524288x69x1_S524288x69,
    binary main_arg1 main_arg3 main_v1 (mulf : (⟨S138x69, .f32⟩ : BufTy).Contents (Elt F) → (⟨S138x69, .f32⟩ : BufTy).Contents (Elt F) → (⟨S138x69, .f32⟩ : BufTy).Contents (Elt F)),
    unary main_v1 main_v2 ((transpose S69x138 [1, 0] · transposes_S138x69_S69x138_1_0) : (⟨S138x69, .f32⟩ : BufTy).Contents (Elt F) → (⟨S69x138, .f32⟩ : BufTy).Contents (Elt F)),
    binary main_v0 main_v2 main_v3 ((fun l r => Host.dotGeneral dot_S524288x69_S69x138_S524288x138_1_0_0_1_n_n none l r) : (⟨S524288x69, .f32⟩ : BufTy).Contents (Elt F) → (⟨S69x138, .f32⟩ : BufTy).Contents (Elt F) → (⟨S524288x138, .f32⟩ : BufTy).Contents (Elt F)),
    unary main_arg2 main_v4 (broadcastInDim S1x138 ![1] bcast_S138_S1x138_1 : (⟨S138, .f32⟩ : BufTy).Contents (Elt F) → (⟨S1x138, .f32⟩ : BufTy).Contents (Elt F)),
    unary main_v4 main_v5 (broadcastInDim S524288x138 ![0, 1] bcast_S1x138_S524288x138_0_1 : (⟨S1x138, .f32⟩ : BufTy).Contents (Elt F) → (⟨S524288x138, .f32⟩ : BufTy).Contents (Elt F)),
    binary main_v3 main_v5 main_v6 (addf : (⟨S524288x138, .f32⟩ : BufTy).Contents (Elt F) → (⟨S524288x138, .f32⟩ : BufTy).Contents (Elt F) → (⟨S524288x138, .f32⟩ : BufTy).Contents (Elt F)),
    unary main_arg4 main_v7 ((transpose S138x78 [1, 0] · transposes_S78x138_S138x78_1_0) : (⟨S78x138, .f32⟩ : BufTy).Contents (Elt F) → (⟨S138x78, .f32⟩ : BufTy).Contents (Elt F)),
    binary main_v6 main_v7 main_v8 ((fun l r => Host.dotGeneral dot_S524288x138_S138x78_S524288x78_1_0_0_1_n_n none l r) : (⟨S524288x138, .f32⟩ : BufTy).Contents (Elt F) → (⟨S138x78, .f32⟩ : BufTy).Contents (Elt F) → (⟨S524288x78, .f32⟩ : BufTy).Contents (Elt F)),
    nullary main_cst (constant S_ .f32 0x3E4CCCCD#32),
    TRef.nullary main_call0.cst (constant S_ .f32 0x00000000#32),
    TRef.unary main_call0.cst main_call0.v0 (broadcastInDim S524288x78 ![] bcast_S_S524288x78),
    TRef.binary (.of main_v8) main_call0.v0 main_call0.v1 (cmpf .oge),
    TRef.unary (.of main_cst) main_call0.v2 id,
    TRef.unary main_call0.v2 main_call0.v3 (broadcastInDim S524288x78 ![] bcast_S_S524288x78),
    TRef.binary main_call0.v3 (.of main_v8) main_call0.v4 mulf,
    TRef.ternary main_call0.v1 (.of main_v8) main_call0.v4 main_call0.call0.v0 select,
    binary main_arg5 main_arg7 main_v10 (mulf : (⟨S156x78, .f32⟩ : BufTy).Contents (Elt F) → (⟨S156x78, .f32⟩ : BufTy).Contents (Elt F) → (⟨S156x78, .f32⟩ : BufTy).Contents (Elt F)),
    unary main_v10 main_v11 ((transpose S78x156 [1, 0] · transposes_S156x78_S78x156_1_0) : (⟨S156x78, .f32⟩ : BufTy).Contents (Elt F) → (⟨S78x156, .f32⟩ : BufTy).Contents (Elt F)),
    binary main_v9 main_v11 main_v12 ((fun l r => Host.dotGeneral dot_S524288x78_S78x156_S524288x156_1_0_0_1_n_n none l r) : (⟨S524288x78, .f32⟩ : BufTy).Contents (Elt F) → (⟨S78x156, .f32⟩ : BufTy).Contents (Elt F) → (⟨S524288x156, .f32⟩ : BufTy).Contents (Elt F)),
    unary main_arg6 main_v13 (broadcastInDim S1x156 ![1] bcast_S156_S1x156_1 : (⟨S156, .f32⟩ : BufTy).Contents (Elt F) → (⟨S1x156, .f32⟩ : BufTy).Contents (Elt F)),
    unary main_v13 main_v14 (broadcastInDim S524288x156 ![0, 1] bcast_S1x156_S524288x156_0_1 : (⟨S1x156, .f32⟩ : BufTy).Contents (Elt F) → (⟨S524288x156, .f32⟩ : BufTy).Contents (Elt F)),
    binary main_v12 main_v14 main_v15 (addf : (⟨S524288x156, .f32⟩ : BufTy).Contents (Elt F) → (⟨S524288x156, .f32⟩ : BufTy).Contents (Elt F) → (⟨S524288x156, .f32⟩ : BufTy).Contents (Elt F)),
    nullary main_cst_0 (constant S_ .f32 0x3E4CCCCD#32),
    TRef.nullary main_call1.cst (constant S_ .f32 0x00000000#32),
    TRef.unary main_call1.cst main_call1.v0 (broadcastInDim S524288x156 ![] bcast_S_S524288x156),
    TRef.binary (.of main_v15) main_call1.v0 main_call1.v1 (cmpf .oge),
    TRef.unary (.of main_cst_0) main_call1.v2 id,
    TRef.unary main_call1.v2 main_call1.v3 (broadcastInDim S524288x156 ![] bcast_S_S524288x156),
    TRef.binary main_call1.v3 (.of main_v15) main_call1.v4 mulf,
    TRef.ternary main_call1.v1 (.of main_v15) main_call1.v4 main_call1.call0.v0 select ]

-- thirty-two binds re-associated, each call's body unfolded in place
set_option maxRecDepth 1024 in
/-- The reference is that line: the rectifiers' and the choices' definitions unfolded at their calls, both sides are
    one chain of steps once sequencing is re-associated. -/
theorem main_eq (c : Dev nD) : main (F := F) c = seq ops := by
  simp only [main, fn_leaky_relu.body, fn_leaky_relu_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches tensor buffers only. -/
theorem ops_sub : (ops : List (HloOp τ sig (Elt F))).Forall fun op => op.bufs ⊆ tcRefs τ sig :=
  ⟨reshape_bufs_sub .., binary_bufs_sub .., unary_bufs_sub .., binary_bufs_sub .., unary_bufs_sub .., unary_bufs_sub ..,
    binary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., unary_bufs_sub .., binary_bufs_sub .., unary_bufs_sub .., unary_bufs_sub .., binary_bufs_sub ..,
    nullary_bufs_sub ..,
    nullary_bufs_sub .., unary_bufs_sub .., binary_bufs_sub .., unary_bufs_sub .., unary_bufs_sub .., binary_bufs_sub ..,
    ternary_bufs_sub ..⟩

/-! ## The two results as terms of the arguments -/

/-- Layer 0 before the rectifier, as the reference computes it: the rows (the input with its unit axis dropped) times the
    transposed masked weights, plus the bias spread over the rows, times the transposed pooling matrix. -/
def pre0 (X : (⟨S524288x69x1, .f32⟩ : BufTy).Contents (Elt F)) (W1 : (⟨S138x69, .f32⟩ : BufTy).Contents (Elt F))
    (B1 : (⟨S138, .f32⟩ : BufTy).Contents (Elt F)) (M1 : (⟨S138x69, .f32⟩ : BufTy).Contents (Elt F))
    (P : (⟨S78x138, .f32⟩ : BufTy).Contents (Elt F)) : (⟨S524288x78, .f32⟩ : BufTy).Contents (Elt F) :=
  Host.dotGeneral dot_S524288x138_S138x78_S524288x78_1_0_0_1_n_n none
    (addf
      (Host.dotGeneral dot_S524288x69_S69x138_S524288x138_1_0_0_1_n_n none
        (shapeCast S524288x69 X shapeCasts_S524288x69x1_S524288x69)
        (transpose S69x138 [1, 0] (mulf W1 M1) transposes_S138x69_S69x138_1_0))
      (broadcastInDim S524288x138 ![0, 1] bcast_S1x138_S524288x138_0_1 (broadcastInDim S1x138 ![1] bcast_S138_S1x138_1 B1)))
    (transpose S138x78 [1, 0] P transposes_S78x138_S138x78_1_0)

/-- The leaky rectifier over the 78 columns: where an entry is at least zero the entry, elsewhere the slope times it. -/
def leaky0 (v : (⟨S524288x78, .f32⟩ : BufTy).Contents (Elt F)) : (⟨S524288x78, .f32⟩ : BufTy).Contents (Elt F) :=
  select (cmpf .oge v (broadcastInDim S524288x78 ![] bcast_S_S524288x78 (constant S_ .f32 0x00000000#32))) v
    (mulf (broadcastInDim S524288x78 ![] bcast_S_S524288x78 (constant S_ .f32 0x3E4CCCCD#32)) v)

/-- The same over the 156 columns. -/
def leaky1 (v : (⟨S524288x156, .f32⟩ : BufTy).Contents (Elt F)) : (⟨S524288x156, .f32⟩ : BufTy).Contents (Elt F) :=
  select (cmpf .oge v (broadcastInDim S524288x156 ![] bcast_S_S524288x156 (constant S_ .f32 0x00000000#32))) v
    (mulf (broadcastInDim S524288x156 ![] bcast_S_S524288x156 (constant S_ .f32 0x3E4CCCCD#32)) v)

/-- Layer 1 before the rectifier: the first result times the transposed masked weights, plus the bias spread over the rows. -/
def pre1 (A : (⟨S524288x78, .f32⟩ : BufTy).Contents (Elt F)) (W2 : (⟨S156x78, .f32⟩ : BufTy).Contents (Elt F))
    (B2 : (⟨S156, .f32⟩ : BufTy).Contents (Elt F)) (M2 : (⟨S156x78, .f32⟩ : BufTy).Contents (Elt F)) :
    (⟨S524288x156, .f32⟩ : BufTy).Contents (Elt F) :=
  addf
    (Host.dotGeneral dot_S524288x78_S78x156_S524288x156_1_0_0_1_n_n none A
      (transpose S78x156 [1, 0] (mulf W2 M2) transposes_S156x78_S78x156_1_0))
    (broadcastInDim S524288x156 ![0, 1] bcast_S1x156_S524288x156_0_1 (broadcastInDim S1x156 ![1] bcast_S156_S1x156_1 B2))

/-- The first result's buffer after the line: the rectifier of layer 0. -/
theorem v9_eq (V : Valuation τ sig (Elt F)) :
    after ops V (main_v9 : DevRef τ sig)
      = leaky0 (pre0 (V (main_arg0 : DevRef τ sig)) (V (main_arg1 : DevRef τ sig)) (V (main_arg2 : DevRef τ sig))
          (V (main_arg3 : DevRef τ sig)) (V (main_arg4 : DevRef τ sig))) := by
  after_results
  rfl

/-- The second result's buffer after the line: the rectifier of layer 1 of the first result. -/
theorem v16_eq (V : Valuation τ sig (Elt F)) :
    after ops V (main_v16 : DevRef τ sig)
      = leaky1 (pre1 (leaky0 (pre0 (V (main_arg0 : DevRef τ sig)) (V (main_arg1 : DevRef τ sig)) (V (main_arg2 : DevRef τ sig))
          (V (main_arg3 : DevRef τ sig)) (V (main_arg4 : DevRef τ sig))))
          (V (main_arg5 : DevRef τ sig)) (V (main_arg6 : DevRef τ sig)) (V (main_arg7 : DevRef τ sig))) := by
  after_results_simp
  rfl

/-- No operation of the line writes an argument. -/
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results
theorem arg5_eq (V : Valuation τ sig (Elt F)) : after ops V (main_arg5 : DevRef τ sig) = V (main_arg5 : DevRef τ sig) := by
  after_results
theorem arg6_eq (V : Valuation τ sig (Elt F)) : after ops V (main_arg6 : DevRef τ sig) = V (main_arg6 : DevRef τ sig) := by
  after_results
theorem arg7_eq (V : Valuation τ sig (Elt F)) : after ops V (main_arg7 : DevRef τ sig) = V (main_arg7 : DevRef τ sig) := by
  after_results

/-- From any memory with zero counters every weakly fair execution of the reference terminates, and every final state
    has each tensor buffer at the fold of the line's results over the initial contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The same with the two results read off as terms of the arguments' initial contents, and the arguments unchanged. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
          = leaky0 (pre0 (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4)))
      ∧ r.2.mem ((c.tc : Thread nD τ).loc main_v16)
          = leaky1 (pre1 (leaky0 (pre0 (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))))
              (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v9).trans (v9_eq _), (h c main_v16).trans (v16_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_line m ρ)

end Cert.RefValue

end
-- ==== Proof.RefRead.lean ====
/-
  The reference's two results read entry by entry.

  Each result is a composition of whole-array operations of the arguments. Read at row p and column q, every operation
  turns into its scalar form: a matrix product into the sum over the contracted axis of the products of the entries, a
  transpose into the entry with the coordinates swapped, the reshape that drops the input's unit axis into the entry with a
  zero third coordinate, a bias spread over the rows into the bias's entry at the column, the constants spread over the
  array into the constants themselves, and the rectifier's comparison, product and choice into the same three on one
  number. What is left is, entry by entry, the pooled-last form of layer 0 under the rectifier, and layer 1 of it.
-/
import proofs.«106287_j49211735277649_2_alg».proof.Proof.RefRun
import proofs.«106287_j49211735277649_2_alg».proof.Proof.Spec
import proofs.«106287_j49211735277649_2_alg».proof.Proof.LibPlainDot

noncomputable section

namespace Cert.RefValue

open Cert.ReferenceIdeal Cert.ReferenceIdeal.Gen Idealize.ShloMosaic Idealize.ShloMosaic.ValueIdx Idealize.ShloMosaic.TcCoe Idealize.SL.Sem
open Cert.LibHostRead Cert.LibPlainDot

/-! ## The three products are rows times columns -/

theorem plain_dot0 : PlainDot dot_S524288x69_S69x138_S524288x138_1_0_0_1_n_n where
  hr := rfl
  hs := rfl
  hl0 := fun _ _ => rfl
  hl1 := fun _ _ => rfl
  hr0 := fun _ _ => rfl
  hr1 := fun _ _ => rfl

theorem plain_dot1 : PlainDot dot_S524288x138_S138x78_S524288x78_1_0_0_1_n_n where
  hr := rfl
  hs := rfl
  hl0 := fun _ _ => rfl
  hl1 := fun _ _ => rfl
  hr0 := fun _ _ => rfl
  hr1 := fun _ _ => rfl

theorem plain_dot2 : PlainDot dot_S524288x78_S78x156_S524288x156_1_0_0_1_n_n where
  hr := rfl
  hs := rfl
  hl0 := fun _ _ => rfl
  hl1 := fun _ _ => rfl
  hr0 := fun _ _ => rfl
  hr1 := fun _ _ => rfl

/-! ## The operations read at an entry -/

/-- The input with its unit axis dropped reads, at (p, k), the input at (p, k, 0): both sit at row-major position
    69 p + k. -/
theorem rows_apply {α : Type} (X : S524288x69x1.Idx → α) (p : Fin 524288) (k : Fin 69) :
    shapeCast S524288x69 X shapeCasts_S524288x69x1_S524288x69 (ix2 p k) = X (ix3 p k (0 : Fin 1)) :=
  shapeCast_apply X _ _ _ (by
    rw [Shape.rowMajor_val_three, Shape.rowMajor_val_two]
    show (p.val * 69 + k.val) * 1 + 0 = p.val * 69 + k.val
    omega)

/-- Layer 0 before the rectifier at (p, q): the pooled-last form. -/
theorem pre0_apply (X : S524288x69x1.Idx → EReal) (W1 : S138x69.Idx → EReal) (B1 : S138.Idx → EReal) (M1 : S138x69.Idx → EReal)
    (P : S78x138.Idx → EReal) (p : Fin 524288) (q : Fin 78) :
    pre0 (F := Ideal) X W1 B1 M1 P (ix2 p q) = Cert.Spec.preR X W1 B1 M1 P p q := by
  unfold pre0 Cert.Spec.preR
  rw [hdot_apply _ plain_dot1]
  refine Finset.sum_congr rfl fun j _ => ?_
  rw [addf_apply, hdot_apply _ plain_dot0, bid_1b_ab_apply, bid_b_1b_apply, transpose_ix2_apply]
  congr 2
  refine Finset.sum_congr rfl fun k _ => ?_
  rw [rows_apply, transpose_ix2_apply, mulf_apply]
  rfl

/-- The rectifier over the 78 columns at an entry is the rectifier of the entry. -/
theorem leaky0_apply (v : S524288x78.Idx → EReal) (i : S524288x78.Idx) : leaky0 (F := Ideal) v i = Cert.Spec.act (v i) := by
  unfold leaky0 Cert.Spec.act Cert.Spec.slope Cert.Spec.zero
  rw [select_apply, cmpf_apply, mulf_apply, bid_scalar_apply, bid_scalar_apply, constant_apply, constant_apply]
  rfl

/-- The same over the 156 columns. -/
theorem leaky1_apply (v : S524288x156.Idx → EReal) (i : S524288x156.Idx) : leaky1 (F := Ideal) v i = Cert.Spec.act (v i) := by
  unfold leaky1 Cert.Spec.act Cert.Spec.slope Cert.Spec.zero
  rw [select_apply, cmpf_apply, mulf_apply, bid_scalar_apply, bid_scalar_apply, constant_apply, constant_apply]
  rfl

/-- Layer 1 before the rectifier at (p, n). -/
theorem pre1_apply (A : S524288x78.Idx → EReal) (W2 : S156x78.Idx → EReal) (B2 : S156.Idx → EReal) (M2 : S156x78.Idx → EReal)
    (p : Fin 524288) (n : Fin 156) :
    pre1 (F := Ideal) A W2 B2 M2 (ix2 p n) = (∑ q : Fin 78, A (ix2 p q) * Cert.Spec.wm2 W2 M2 n q) + B2 (ix1 n) := by
  unfold pre1 Cert.Spec.wm2
  rw [addf_apply, hdot_apply _ plain_dot2, bid_1b_ab_apply, bid_b_1b_apply]
  congr 1
  refine Finset.sum_congr rfl fun q _ => ?_
  rw [transpose_ix2_apply, mulf_apply]

/-! ## The two results -/

/-- The first result is, entry by entry, the rectifier of the pooled-last form of layer 0. -/
theorem first_eq (X : S524288x69x1.Idx → EReal) (W1 : S138x69.Idx → EReal) (B1 : S138.Idx → EReal) (M1 : S138x69.Idx → EReal)
    (P : S78x138.Idx → EReal) :
    leaky0 (F := Ideal) (pre0 (F := Ideal) X W1 B1 M1 P)
      = Cert.Spec.arr2 (fun r q => Cert.Spec.act (Cert.Spec.preR X W1 B1 M1 P r q)) := by
  funext i
  obtain ⟨p, q, rfl⟩ : ∃ (p : Fin 524288) (q : Fin 78), i = ix2 p q := ⟨i 0, i 1, eq_ix2 i⟩
  rw [leaky0_apply, pre0_apply, Cert.Spec.arr2_apply]

/-- The second result is, entry by entry, layer 1 of the rows it is given. -/
theorem second_eq (a1 : Fin 524288 → Fin 78 → EReal) (W2 : S156x78.Idx → EReal) (B2 : S156.Idx → EReal) (M2 : S156x78.Idx → EReal) :
    leaky1 (F := Ideal) (pre1 (F := Ideal) (Cert.Spec.arr2 a1) W2 B2 M2) = Cert.Spec.arr2 (Cert.Spec.layer1 a1 W2 B2 M2) := by
  funext i
  obtain ⟨p, n, rfl⟩ : ∃ (p : Fin 524288) (n : Fin 156), i = ix2 p n := ⟨i 0, i 1, eq_ix2 i⟩
  rw [leaky1_apply, pre1_apply, Cert.Spec.arr2_apply]
  rfl

/-! ## The run -/

/-- From any memory with zero counters every weakly fair execution of the reference terminates; the first result is then
    the rectifier of the pooled-last layer 0 of the arguments' initial contents, the second is layer 1 of the first, and the
    eight arguments are unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v9)
            = Cert.Spec.arr2 (fun r q => Cert.Spec.act (Cert.Spec.preR
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg4)) r q))
        ∧ r.2.mem ((c.tc : Thread Cert.ReferenceIdeal.nD Cert.ReferenceIdeal.τ).loc Cert.ReferenceIdeal.main_v16)
            = Cert.Spec.arr2 (Cert.Spec.layer1 (fun r q => Cert.Spec.act (Cert.Spec.preR
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg4)) r q))
                (m ((c.tc : Thread Cert.ReferenceIdeal.nD Cert.ReferenceIdeal.τ).loc Cert.ReferenceIdeal.main_arg5))
                (m ((c.tc : Thread Cert.ReferenceIdeal.nD Cert.ReferenceIdeal.τ).loc Cert.ReferenceIdeal.main_arg6))
                (m ((c.tc : Thread Cert.ReferenceIdeal.nD Cert.ReferenceIdeal.τ).loc Cert.ReferenceIdeal.main_arg7)))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run (Cert.ReferenceIdeal.defs (F := Ideal)) _ _).mono (fun _ h c => by
      obtain ⟨h9, h16, hargs⟩ := h c
      refine ⟨h9.trans (first_eq _ _ _ _ _), h16.trans ?_, hargs⟩
      rw [first_eq]
      exact second_eq _ _ _ _)
    (run_terms (F := Ideal) m ρ)

end Cert.RefValue

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.LibVecMatAssoc.lean ====
/-
  A row vector through two matrix products, on the extended reals.

  Applying a weighted sum of rows and then a linear map gives the same as applying the linear map to each row
  and then taking the weighted sum:  (a . X) . w  =  a . (X . w),  that is
      sum_e (sum_n a_n x_{n,e}) w_e  =  sum_n a_n (sum_e x_{n,e} w_e).
  This is distributivity plus an exchange of two finite sums. On the extended reals distributivity fails at the
  infinities, so the statement asks every number involved to be a real; it is then the real identity, carried
  through the coercion.
-/
import Idealize.ShloMosaic.PureOps.Ideal

noncomputable section

namespace Cert.Lib.VecMatAssoc

open Finset

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals, read in the extended reals, is the coercion of the real sum. -/
theorem sum_mul_coe {ι : Type*} (s : Finset ι) (f g : ι → EReal) (fr gr : ι → ℝ)
    (hf : ∀ i, f i = (fr i : EReal)) (hg : ∀ i, g i = (gr i : EReal)) :
    ∑ i ∈ s, f i * g i = ((∑ i ∈ s, fr i * gr i : ℝ) : EReal) := by
  rw [coe_sum]
  exact Finset.sum_congr rfl fun i _ => by rw [hf i, hg i, EReal.coe_mul]

/-- (a . X) . w = a . (X . w) for real-valued a, X, w. -/
theorem vec_mat_assoc {N E : Type*} [Fintype N] [Fintype E] (a : N → EReal) (x : N → E → EReal) (w : E → EReal)
    (ha : ∀ n, ∃ r : ℝ, a n = (r : EReal)) (hx : ∀ n e, ∃ r : ℝ, x n e = (r : EReal)) (hw : ∀ e, ∃ r : ℝ, w e = (r : EReal)) :
    ∑ e, (∑ n, a n * x n e) * w e = ∑ n, a n * ∑ e, x n e * w e := by
  choose ar har using ha
  choose xr hxr using hx
  choose wr hwr using hw
  have L : ∑ e, (∑ n, a n * x n e) * w e = ((∑ e, (∑ n, ar n * xr n e) * wr e : ℝ) : EReal) :=
    sum_mul_coe _ _ _ (fun e => ∑ n, ar n * xr n e) wr (fun e => sum_mul_coe _ _ _ ar (fun n => xr n e) har (fun n => hxr n e)) hwr
  have R : ∑ n, a n * ∑ e, x n e * w e = ((∑ n, ar n * ∑ e, xr n e * wr e : ℝ) : EReal) :=
    sum_mul_coe _ _ _ ar (fun n => ∑ e, xr n e * wr e) har (fun n => sum_mul_coe _ _ _ (xr n) wr (hxr n) hwr)
  rw [L, R]
  congr 1
  simp only [Finset.sum_mul, Finset.mul_sum]
  rw [Finset.sum_comm]
  exact Finset.sum_congr rfl fun n _ => Finset.sum_congr rfl fun e _ => by ring

end Cert.Lib.VecMatAssoc

end
-- ==== Proof.Fold.lean ====
/-
  Pooling before or after the bias: the two orders of layer 0 agree on real inputs.

  With w_jk the masked weight, p_j the pooling weights of one output, x_k a row and b_j the bias,
      sum_k x_k (sum_j w_jk p_j) + sum_j b_j p_j  =  sum_j (sum_k x_k w_jk + b_j) p_j.
  Expanding the right side by distributivity gives a double sum over (j, k) plus the bias term; the left side is
  the same double sum taken over (k, j). On the extended reals distributivity fails at the infinities, so every
  array is asked to be real-valued; both sides are then coercions of real expressions and the identity is the
  real one.
-/
import proofs.«106287_j49211735277649_2_alg».proof.Proof.Spec
import proofs.«106287_j49211735277649_2_alg».proof.Proof.LibRealValued
import proofs.«106287_j49211735277649_2_alg».proof.Proof.LibVecMatAssoc

noncomputable section

namespace Cert.Fold

open Idealize.ShloMosaic Idealize.ShloMosaic.ValueIdx Cert.Spec Cert.Lib.RealValued Cert.Lib.VecMatAssoc

/-- The real identity behind the fold: distributivity and an exchange of the two finite sums. -/
theorem real_fold {K J : Type*} [Fintype K] [Fintype J] (x : K → ℝ) (w : J → K → ℝ) (b p : J → ℝ) :
    (∑ k, x k * ∑ j, w j k * p j) + ∑ j, b j * p j = ∑ j, ((∑ k, x k * w j k) + b j) * p j := by
  simp only [add_mul, Finset.sum_add_distrib, Finset.sum_mul, Finset.mul_sum]
  rw [Finset.sum_comm]
  congr 1
  exact Finset.sum_congr rfl fun j _ => Finset.sum_congr rfl fun k _ => by ring

/-- Layer 0 before the rectifier is the same number in the kernel's order and in the reference's, on real inputs. -/
theorem preK_eq_preR (x : SX.Idx → EReal) (W1 : SW1.Idx → EReal) (b1 : SB1.Idx → EReal) (mask1 : SW1.Idx → EReal)
    (pool : SPool.Idx → EReal)
    (hx : AllReal x) (hW : AllReal W1) (hb : AllReal b1) (hm : AllReal mask1) (hp : AllReal pool)
    (r : Fin 524288) (q : Fin 78) :
    preK x W1 b1 mask1 pool r q = preR x W1 b1 mask1 pool r q := by
  obtain ⟨xr, rfl⟩ := hx.exists_real
  obtain ⟨Wr, rfl⟩ := hW.exists_real
  obtain ⟨br, rfl⟩ := hb.exists_real
  obtain ⟨mr, rfl⟩ := hm.exists_real
  obtain ⟨pr, rfl⟩ := hp.exists_real
  -- the real arrays read at coordinates
  let xs : Fin 69 → ℝ := fun k => xr (ix3 r k (0 : Fin 1))
  let ws : Fin 138 → Fin 69 → ℝ := fun j k => Wr (ix2 j k) * mr (ix2 j k)
  let bs : Fin 138 → ℝ := fun j => br (ix1 j)
  let ps : Fin 138 → ℝ := fun j => pr (ix2 q j)
  -- a masked weight is the coercion of the real product
  have hwm : ∀ j k, wm1 (fun i => (Wr i : EReal)) (fun i => (mr i : EReal)) j k = ((ws j k : ℝ) : EReal) :=
    fun j k => (EReal.coe_mul _ _).symm
  -- the pooled weights and the pooled bias are coercions of real sums
  have hwc : ∀ k, wc (fun i => (Wr i : EReal)) (fun i => (mr i : EReal)) (fun i => (pr i : EReal)) k q
      = ((∑ j, ws j k * ps j : ℝ) : EReal) :=
    fun k => sum_mul_coe _ _ _ (fun j => ws j k) ps (fun j => hwm j k) (fun _ => rfl)
  have hbc : bc (fun i => (br i : EReal)) (fun i => (pr i : EReal)) q = ((∑ j, bs j * ps j : ℝ) : EReal) :=
    sum_mul_coe _ _ _ bs ps (fun _ => rfl) (fun _ => rfl)
  -- the kernel's order
  have L : preK (fun i => (xr i : EReal)) (fun i => (Wr i : EReal)) (fun i => (br i : EReal)) (fun i => (mr i : EReal))
      (fun i => (pr i : EReal)) r q = (((∑ k, xs k * ∑ j, ws j k * ps j) + ∑ j, bs j * ps j : ℝ) : EReal) := by
    unfold preK
    exact (congrArg₂ (· + ·) (sum_mul_coe _ _ _ xs (fun k => ∑ j, ws j k * ps j) (fun _ => rfl) hwc) hbc).trans
      (EReal.coe_add _ _).symm
  -- the reference's order
  have R : preR (fun i => (xr i : EReal)) (fun i => (Wr i : EReal)) (fun i => (br i : EReal)) (fun i => (mr i : EReal))
      (fun i => (pr i : EReal)) r q = ((∑ j, ((∑ k, xs k * ws j k) + bs j) * ps j : ℝ) : EReal) := by
    unfold preR
    refine sum_mul_coe _ _ _ (fun j => (∑ k, xs k * ws j k) + bs j) ps (fun j => ?_) (fun _ => rfl)
    exact (congrArg (· + ((bs j : ℝ) : EReal)) (sum_mul_coe _ _ _ xs (fun k => ws j k) (fun _ => rfl) (fun k => hwm j k))).trans
      (EReal.coe_add _ _).symm
  rw [L, R, real_fold xs ws bs ps]

end Cert.Fold

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«106287_j49211735277649_2_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.Finite.lean ====
/-
  The precondition "every input is finite", read back for the five arrays of layer 0.

  The precondition is the conjunction of eight tests, one per input array: the absolute value of every entry is
  below +infinity. On the extended reals that says every entry is a real number. The conjunction is a chain of
  seven binary "and"s of one-bit words, nested to the left; a chain that came out 1 had 1 at every link, and each
  link is one array's test, which makes that array real-valued.
-/
import proofs.«106287_j49211735277649_2_alg».proof.Pre_finite_inputs
import proofs.«106287_j49211735277649_2_alg».proof.Proof.Gen.Pre_finite_inputs
import proofs.«106287_j49211735277649_2_alg».proof.Proof.Spec
import proofs.«106287_j49211735277649_2_alg».proof.Proof.LibRealValued
import proofs.«106287_j49211735277649_2_alg».proof.Proof.LibFiniteTest
import Idealize.ShloMosaic.Lib.ReduceAll

noncomputable section

namespace Cert.Finite

open Idealize.ShloMosaic Cert.Lib.RealValued Cert.Lib.FiniteTest

/-- The rank-0 shape has exactly one index. -/
instance : Subsingleton Cert.Pre_finite_inputs.S_.Idx := ⟨fun _ _ => funext fun d => d.elim0⟩

/-- If the precondition holds, the five arrays layer 0 reads (the rows, the first weights, bias and mask, the pooling
    matrix) are real-valued. -/
theorem allReal_of_fn [Cert.Pre_finite_inputs.Facts]
    (x : FVec Ideal Cert.Spec.SX .f32) (W1 : FVec Ideal Cert.Spec.SW1 .f32) (b1 : FVec Ideal Cert.Spec.SB1 .f32)
    (mask1 : FVec Ideal Cert.Spec.SW1 .f32) (pool : FVec Ideal Cert.Spec.SPool .f32) (W2 : FVec Ideal Cert.Spec.SW2 .f32)
    (b2 : FVec Ideal Cert.Spec.SB2 .f32) (mask2 : FVec Ideal Cert.Spec.SW2 .f32)
    (h : Cert.Pre_finite_inputs.fn (F := Ideal) x W1 b1 mask1 pool W2 b2 mask2 = fun _ => 1#1) :
    AllReal x ∧ AllReal W1 ∧ AllReal b1 ∧ AllReal mask1 ∧ AllReal pool := by
  -- the one entry of the rank-0 result
  have e := congrFun h ValueIdx.ix0
  dsimp only [Cert.Pre_finite_inputs.fn, Cert.Pre_finite_inputs.fn_part1, Cert.Pre_finite_inputs.fn_part2] at e
  -- the chain of "and"s, outermost first: the last three links are the second layer's arrays
  obtain ⟨e7, -⟩ := IntOp.andi_eq_one.1 e
  obtain ⟨e6, -⟩ := IntOp.andi_eq_one.1 e7
  obtain ⟨e5, -⟩ := IntOp.andi_eq_one.1 e6
  obtain ⟨e4, hpool⟩ := IntOp.andi_eq_one.1 e5
  obtain ⟨e3, hmask⟩ := IntOp.andi_eq_one.1 e4
  obtain ⟨e2, hb1⟩ := IntOp.andi_eq_one.1 e3
  obtain ⟨hx, hW1⟩ := IntOp.andi_eq_one.1 e2
  exact ⟨allReal_of_all x _ _ _ _ _ _ hx, allReal_of_all W1 _ _ _ _ _ _ hW1, allReal_of_all b1 _ _ _ _ _ _ hb1,
    allReal_of_all mask1 _ _ _ _ _ _ hmask, allReal_of_all pool _ _ _ _ _ _ hpool⟩

end Cert.Finite

end
-- ==== Proof.Claims.lean ====
/-
  The five claims.

  Both programs run; the kernel's results are `A1` and `A2` of its arguments — layer 0 with the pooling folded into
  the weights and the bias first — and the reference's are the same two layers with the pooling done after the bias.
  For finite inputs the two layer-0 pre-activations are one number, by distributivity and an exchange of two finite
  sums; the rectifier and layer 1 are then the same function of it on both sides.
-/
import proofs.«106287_j49211735277649_2_alg».proof.Defs
import proofs.«106287_j49211735277649_2_alg».proof.Proof.Gen.Kernel.Frame
import proofs.«106287_j49211735277649_2_alg».proof.Proof.Gen.KernelIdeal.Frame
import proofs.«106287_j49211735277649_2_alg».proof.Proof.Gen.Pre_finite_inputs
import proofs.«106287_j49211735277649_2_alg».proof.Proof.KBlocks
import proofs.«106287_j49211735277649_2_alg».proof.Proof.RefRead
import proofs.«106287_j49211735277649_2_alg».proof.Proof.Fold
import proofs.«106287_j49211735277649_2_alg».proof.Proof.Finite

noncomputable section

namespace Cert.Proof.Claims

open Idealize.ShloMosaic Idealize.ShloMosaic.TcCoe Idealize.SL.Sem
open Cert.Spec Cert.Lib.RealValued

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.RefValue.run m ρ)

/-- The idealization rewrote nothing. -/
theorem preserves : Cert.preserves_Kernel_KernelIdeal := trivial

/-- For real-valued arguments the two orders of pooling give one layer-0 result, row by row. -/
theorem a1_eq (x : SX.Idx → EReal) (W1 : SW1.Idx → EReal) (b1 : SB1.Idx → EReal) (mask1 : SW1.Idx → EReal) (pool : SPool.Idx → EReal)
    (hx : AllReal x) (hW : AllReal W1) (hb : AllReal b1) (hm : AllReal mask1) (hp : AllReal pool) :
    (fun r q => act (preR x W1 b1 mask1 pool r q)) = fun r q => act (preK x W1 b1 mask1 pool r q) :=
  funext fun r => funext fun q => by rw [Cert.Fold.preK_eq_preR x W1 b1 mask1 pool hx hW hb hm hp r q]

theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    fun c => Cert.KBlocks.A1 m c, fun c => Cert.KBlocks.A2 m c, ?_, ?_⟩
  · exact (θ_run Cert.KernelIdeal.defs _ _).mono (fun r h c => ⟨(h c).2.2.1, (h c).1, (h c).2.1, (h c).2.2⟩)
      (Cert.KBlocks.run m ρ)
  · refine (θ_run Cert.ReferenceIdeal.defs _ _).mono (fun r h c => ?_) (Cert.RefValue.run m' ρ')
    obtain ⟨h9, h16, hargs⟩ := h c
    obtain ⟨e0, e1, e2, e3, e4, e5, e6, e7⟩ := hagree c
    obtain ⟨hx, hW, hb, hm, hp⟩ := Cert.Finite.allReal_of_fn _ _ _ _ _ _ _ _ (hpre c)
    refine ⟨hargs.1.trans e0, ?_, ?_, hargs⟩
    · rw [h9, e0, e1, e2, e3, e4]
      exact congrArg arr2 (a1_eq _ _ _ _ _ hx hW hb hm hp)
    · rw [h16, e0, e1, e2, e3, e4, e5, e6, e7]
      exact congrArg (fun a => arr2 (layer1 a _ _ _)) (a1_eq _ _ _ _ _ hx hW hb hm hp)

end Cert.Proof.Claims

end
-- ==== Proof.lean ====
/- The proof of `Cert.Claim`.

   A two-layer network over rows of 69 numbers: a masked linear map to 138 numbers plus a bias, a pooling matrix down to
   78, a leaky rectifier; then a masked linear map to 156 numbers plus a bias and the rectifier again. The reference
   applies these in that order. The kernel multiplies the masked layer-0 weights and the layer-0 bias by the pooling
   matrix once, before its grid, and then, for each of 128 blocks of 4096 rows, walks the block in eight chunks of 512
   rows, computing both layers of a chunk with two matrix products.

   On the extended reals the two differ in one place only — whether the pooling is applied to the weights and the bias
   or to the biased product —, which is distributivity and an exchange of two finite sums: true of real numbers, false
   at the infinities, so this is where the precondition (every input finite) is used. The modules:
     Spec      the two results as functions of the arguments, entry by entry, in both orders of pooling;
     Fold      the two orders agree on real-valued arguments;
     Finite    the precondition makes the arguments of layer 0 real-valued;
     RefRun, RefRead   the reference as one line of operations, its run, and its two results read at an entry;
     KPay, KTrip       what a chunk computes, and what the eight chunks leave in a block's two outputs;
     KHost     the pooled weights and bias and the other arrays the kernel's grid reads, at an entry;
     KGrid     which rows a block holds, and that the blocks cover the results;
     KBlocks   the kernel's two result arrays after its run;
     Claims    the three frames, the (empty) idealization ledger, and the equality of the results.
   The witnesses of the programs' stated side conditions are the instances the generated modules prove. -/
import proofs.«106287_j49211735277649_2_alg».proof.Defs
import proofs.«106287_j49211735277649_2_alg».proof.Proof.Claims
import proofs.«106287_j49211735277649_2_alg».proof.Proof.Gen.Kernel
import proofs.«106287_j49211735277649_2_alg».proof.Proof.Gen.KernelIdeal
import proofs.«106287_j49211735277649_2_alg».proof.Proof.Gen.ReferenceIdeal
import proofs.«106287_j49211735277649_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
